-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S1024x512 : Shape := ⟨2, ![1024, 512]⟩
abbrev S1024 : Shape := ⟨1, ![1024]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x512 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x512 .f32 := Host.absf main_arg15
  let main_cst_28 : FVec F S_ .f32 := constant S_ .f32 0x7F800000#32
  let main_v75 : FVec F S1024x512 .f32 := broadcastInDim S1024x512 ![] bcast_S_S1024x512 main_cst_28
  let main_v76 : IVec S1024x512 1 := cmpf .olt main_v74 main_v75
  let main_c_29 : IVec S_ 1 := constantI S_ 1 1#1
  let main_v77 : IVec S_ 1 := (fun x v => Host.reduce IntOp.andi x v reducesTo_S1024x512_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x512 .f32) (main_arg12 : FVec F S1024 .f32) (main_arg13 : FVec F S1024x1024 .f32) (main_arg14 : FVec F S1024 .f32) (main_arg15 : FVec F S1024x512 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x512 .f32 := Host.absf main_arg11
  let main_cst_20 : FVec F S_ .f32 := constant S_ .f32 0x7F800000#32
  let main_v55 : FVec F S1024x512 .f32 := broadcastInDim S1024x512 ![] bcast_S_S1024x512 main_cst_20
  let main_v56 : IVec S1024x512 1 := cmpf .olt main_v54 main_v55
  let main_c_21 : IVec S_ 1 := constantI S_ 1 1#1
  let main_v57 : IVec S_ 1 := (fun x v => Host.reduce IntOp.andi x v reducesTo_S1024x512_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x512 .f32) (main_arg8 : FVec F S1024 .f32) (main_arg9 : FVec F S1024x1024 .f32) (main_arg10 : FVec F S1024 .f32) (main_arg11 : FVec F S1024x512 .f32) (main_arg12 : FVec F S1024 .f32) (main_arg13 : FVec F S1024x1024 .f32) (main_arg14 : FVec F S1024 .f32) (main_arg15 : FVec F S1024x512 .f32) (main_arg16 : FVec F S1024 .f32) (main_arg17 : FVec F S1024x1024 .f32) (main_arg18 : FVec F S1024 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x512 .f32) (main_arg8 : FVec F S1024 .f32) (main_arg9 : FVec F S1024x1024 .f32) (main_arg10 : FVec F S1024 .f32) (main_arg11 : FVec F S1024x512 .f32) (main_arg12 : FVec F S1024 .f32) (main_arg13 : FVec F S1024x1024 .f32) (main_arg14 : FVec F S1024 .f32) (main_arg15 : FVec F S1024x512 .f32) (main_arg16 : FVec F S1024 .f32) (main_arg17 : FVec F S1024x1024 .f32) (main_arg18 : FVec F S1024 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x512 .f32) (main_arg1 : FVec F S8192x1024 .f32) (main_arg2 : FVec F S8192x1024 .f32) (main_arg3 : FVec F S1024x512 .f32) (main_arg4 : FVec F S1024 .f32) (main_arg5 : FVec F S1024x1024 .f32) (main_arg6 : FVec F S1024 .f32) (main_arg7 : FVec F S1024x512 .f32) (main_arg8 : FVec F S1024 .f32) (main_arg9 : FVec F S1024x1024 .f32) (main_arg10 : FVec F S1024 .f32) (main_arg11 : FVec F S1024x512 .f32) (main_arg12 : FVec F S1024 .f32) (main_arg13 : FVec F S1024x1024 .f32) (main_arg14 : FVec F S1024 .f32) (main_arg15 : FVec F S1024x512 .f32) (main_arg16 : FVec F S1024 .f32) (main_arg17 : FVec F S1024x1024 .f32) (main_arg18 : FVec F S1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x512 : Shape := ⟨2, ![8192, 512]⟩
abbrev S8192x1024 : Shape := ⟨2, ![8192, 1024]⟩
abbrev S1024x512 : Shape := ⟨2, ![1024, 512]⟩
abbrev S1024 : Shape := ⟨1, ![1024]⟩
abbrev S1024x1024 : Shape := ⟨2, ![1024, 1024]⟩
abbrev S4096x512 : Shape := ⟨2, ![4096, 512]⟩
abbrev S4096 : Shape := ⟨1, ![4096]⟩
abbrev S4096x1024 : Shape := ⟨2, ![4096, 1024]⟩
abbrev S512x4096 : Shape := ⟨2, ![512, 4096]⟩
abbrev S1024x4096 : Shape := ⟨2, ![1024, 4096]⟩
abbrev S1536x4096 : Shape := ⟨2, ![1536, 4096]⟩
abbrev S1x4096 : Shape := ⟨2, ![1, 4096]⟩
abbrev S256x512 : Shape := ⟨2, ![256, 512]⟩
abbrev S256x1024 : Shape := ⟨2, ![256, 1024]⟩
abbrev S256x1536 : Shape := ⟨2, ![256, 1536]⟩
abbrev S256x4096 : Shape := ⟨2, ![256, 4096]⟩

abbrev nBuf : Space → Nat
  | .hbm => 32
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S1024x512, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x512, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x512, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x512, .f32⟩
  | .hbm, ⟨20, _⟩ => ⟨S4096, .f32⟩
  | .hbm, ⟨21, _⟩ => ⟨S4096x1024, .f32⟩
  | .hbm, ⟨22, _⟩ => ⟨S4096, .f32⟩
  | .hbm, ⟨23, _⟩ => ⟨S512x4096, .f32⟩
  | .hbm, ⟨24, _⟩ => ⟨S512x4096, .bf16⟩
  | .hbm, ⟨25, _⟩ => ⟨S1024x4096, .f32⟩
  | .hbm, ⟨26, _⟩ => ⟨S1024x4096, .bf16⟩
  | .hbm, ⟨27, _⟩ => ⟨S1536x4096, .bf16⟩
  | .hbm, ⟨28, _⟩ => ⟨S4096, .f32⟩
  | .hbm, ⟨29, _⟩ => ⟨S1x4096, .f32⟩
  | .hbm, ⟨30, _⟩ => ⟨S8192x1024, .f32⟩
  | .hbm, ⟨31, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1536x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x512_S1024x512_S1024x512_S1024x512_S4096x512_d0 : Shape.Concatenates [S1024x512, S1024x512, S1024x512, S1024x512] S4096x512 0
  concatenates_S1024_S1024_S1024_S1024_S4096_d0 : Shape.Concatenates [S1024, S1024, S1024, S1024] S4096 0
  concatenates_S1024x1024_S1024x1024_S1024x1024_S1024x1024_S4096x1024_d0 : Shape.Concatenates [S1024x1024, S1024x1024, S1024x1024, S1024x1024] S4096x1024 0
  transposes_S4096x512_S512x4096_1_0 : S4096x512.Transposes [1, 0] S512x4096
  bitsLt_bf16_f32 : FTy.bits .bf16 < FTy.bits .f32
  transposes_S4096x1024_S1024x4096_1_0 : S4096x1024.Transposes [1, 0] S1024x4096
  concatenates_S512x4096_S1024x4096_S1536x4096_d0 : Shape.Concatenates [S512x4096, S1024x4096] S1536x4096 0
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  concatenates_S256x512_S256x1024_S256x1536_d1 : Shape.Concatenates [S256x512, S256x1024] S256x1536 1
  inb_S1536x4096_S1536x4096_0_0 : ∀ a, (![0, 0] : Fin 2 → Nat) a + S1536x4096.size a ≤ S1536x4096.size a
  h_S1536x4096 : 0 < S1536x4096.numel
  shapeCasts_S1536x4096_S1536x4096 : S1536x4096.ShapeCasts S1536x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1536_S1536x4096_S256x4096_1_0_0_1_n_n_wf : DotDims.WF S256x1536 S1536x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x4096.size a ≤ S1536x4096.size a
  hwx0_3 : ∀ i : grid0.Coords, EltTy.bits .bf16 = 32 ∨ (Rect.block (s := S1536x4096) S1536x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1536_S1536x4096_S256x4096_1_0_0_1_n_n : DotDims S256x1536 S1536x4096 S256x4096 where
  lhsContracting := [1]
  rhsContracting := [0]
  lhsNonContracting := [0]
  rhsNonContracting := [1]
  lhsBatch := []
  rhsBatch := []
  wf := dot_S256x1536_S1536x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1536x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S1024x512 : Shape := ⟨2, ![1024, 512]⟩
abbrev S1024 : Shape := ⟨1, ![1024]⟩
abbrev S1024x1024 : Shape := ⟨2, ![1024, 1024]⟩
abbrev S4096x512 : Shape := ⟨2, ![4096, 512]⟩
abbrev S4096 : Shape := ⟨1, ![4096]⟩
abbrev S4096x1024 : Shape := ⟨2, ![4096, 1024]⟩
abbrev S512x4096 : Shape := ⟨2, ![512, 4096]⟩
abbrev S8192x4096 : Shape := ⟨2, ![8192, 4096]⟩
abbrev S1x4096 : Shape := ⟨2, ![1, 4096]⟩
abbrev S1024x4096 : Shape := ⟨2, ![1024, 4096]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S1024x512, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x512, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x512, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x512, .f32⟩
  | .hbm, ⟨20, _⟩ => ⟨S4096, .f32⟩
  | .hbm, ⟨21, _⟩ => ⟨S4096x1024, .f32⟩
  | .hbm, ⟨22, _⟩ => ⟨S4096, .f32⟩
  | .hbm, ⟨23, _⟩ => ⟨S512x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  concatenates_S1024x512_S1024x512_S1024x512_S1024x512_S4096x512_d0 : Shape.Concatenates [S1024x512, S1024x512, S1024x512, S1024x512] S4096x512 0
  concatenates_S1024_S1024_S1024_S1024_S4096_d0 : Shape.Concatenates [S1024, S1024, S1024, S1024] S4096 0
  concatenates_S1024x1024_S1024x1024_S1024x1024_S1024x1024_S4096x1024_d0 : Shape.Concatenates [S1024x1024, S1024x1024, S1024x1024, S1024x1024] S4096x1024 0
  transposes_S4096x512_S512x4096_1_0 : S4096x512.Transposes [1, 0] S512x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S4096x1024_S1024x4096_1_0 : S4096x1024.Transposes [1, 0] S1024x4096
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x512_S512x4096_S8192x4096_1_0_0_1_n_n_wf : DotDims.WF S8192x512 S512x4096 S8192x4096 [1] [0] [0] [1] [] []
  dot_S8192x1024_S1024x4096_S8192x4096_1_0_0_1_n_n_wf : DotDims.WF S8192x1024 S1024x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.CellFrameBits.lean ====
/-
  The frame run of the LSTM-cell program: eleven host operations (four four-way joins of the gate weights and
  biases, two transposes, two changes of float format, the join of the two weight matrices along the contracted
  axis, the sum of the two bias vectors and its reshape to a row), then one region over 32 batch tiles of 256 rows.
  At each tile the body loads the tile's rows of x, h and c, the whole fused weight matrix and the bias row, and
  stores the tile's rows of the new hidden state and the new cell state; it keeps nothing between tiles.  This
  module states what each output tile holds after the body as a function of the five input blocks, runs the body,
  and from that obtains the run of the whole program with every array named, and the frame.  Everything here is
  stated at any float instance.
-/
import proofs.«150322_j15693810500357_2_alg».proof.Proof.Gen.Kernel.Launch
import proofs.«150322_j15693810500357_2_alg».proof.Proof.Gen.Kernel.Skeleton
import proofs.«150322_j15693810500357_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the eleven host operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- A buffer that is none of the eleven host results is found by the region as launched. -/
theorem V_kept (c : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) (h8 : b ≠ main_v8) (h9 : b ≠ main_v9) (h10 : b ≠ main_v10) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9, StableHlo.devRef_ne_of_ne h10⟩))

theorem V_main_arg0 (c : Dev nD) : V m c main_arg0 = m ((c : Thread nD τ).loc main_arg0) :=
  V_kept m c main_arg0 (by decide) (by decide) (by decide) (by decide) (by decide) (by decide) (by decide) (by decide) (by decide) (by decide) (by decide)
theorem V_main_arg1 (c : Dev nD) : V m c main_arg1 = m ((c : Thread nD τ).loc main_arg1) :=
  V_kept m c main_arg1 (by decide) (by decide) (by decide) (by decide) (by decide) (by decide) (by decide) (by decide) (by decide) (by decide) (by decide)
theorem V_main_arg2 (c : Dev nD) : V m c main_arg2 = m ((c : Thread nD τ).loc main_arg2) :=
  V_kept m c main_arg2 (by decide) (by decide) (by decide) (by decide) (by decide) (by decide) (by decide) (by decide) (by decide) (by decide) (by decide)
theorem V_main_arg3 (c : Dev nD) : V m c main_arg3 = m ((c : Thread nD τ).loc main_arg3) :=
  V_kept m c main_arg3 (by decide) (by decide) (by decide) (by decide) (by decide) (by decide) (by decide) (by decide) (by decide) (by decide) (by decide)
theorem V_main_arg4 (c : Dev nD) : V m c main_arg4 = m ((c : Thread nD τ).loc main_arg4) :=
  V_kept m c main_arg4 (by decide) (by decide) (by decide) (by decide) (by decide) (by decide) (by decide) (by decide) (by decide) (by decide) (by decide)
theorem V_main_arg5 (c : Dev nD) : V m c main_arg5 = m ((c : Thread nD τ).loc main_arg5) :=
  V_kept m c main_arg5 (by decide) (by decide) (by decide) (by decide) (by decide) (by decide) (by decide) (by decide) (by decide) (by decide) (by decide)
theorem V_main_arg6 (c : Dev nD) : V m c main_arg6 = m ((c : Thread nD τ).loc main_arg6) :=
  V_kept m c main_arg6 (by decide) (by decide) (by decide) (by decide) (by decide) (by decide) (by decide) (by decide) (by decide) (by decide) (by decide)
theorem V_main_arg7 (c : Dev nD) : V m c main_arg7 = m ((c : Thread nD τ).loc main_arg7) :=
  V_kept m c main_arg7 (by decide) (by decide) (by decide) (by decide) (by decide) (by decide) (by decide) (by decide) (by decide) (by decide) (by decide)
theorem V_main_arg8 (c : Dev nD) : V m c main_arg8 = m ((c : Thread nD τ).loc main_arg8) :=
  V_kept m c main_arg8 (by decide) (by decide) (by decide) (by decide) (by decide) (by decide) (by decide) (by decide) (by decide) (by decide) (by decide)
theorem V_main_arg9 (c : Dev nD) : V m c main_arg9 = m ((c : Thread nD τ).loc main_arg9) :=
  V_kept m c main_arg9 (by decide) (by decide) (by decide) (by decide) (by decide) (by decide) (by decide) (by decide) (by decide) (by decide) (by decide)
theorem V_main_arg10 (c : Dev nD) : V m c main_arg10 = m ((c : Thread nD τ).loc main_arg10) :=
  V_kept m c main_arg10 (by decide) (by decide) (by decide) (by decide) (by decide) (by decide) (by decide) (by decide) (by decide) (by decide) (by decide)
theorem V_main_arg11 (c : Dev nD) : V m c main_arg11 = m ((c : Thread nD τ).loc main_arg11) :=
  V_kept m c main_arg11 (by decide) (by decide) (by decide) (by decide) (by decide) (by decide) (by decide) (by decide) (by decide) (by decide) (by decide)
theorem V_main_arg12 (c : Dev nD) : V m c main_arg12 = m ((c : Thread nD τ).loc main_arg12) :=
  V_kept m c main_arg12 (by decide) (by decide) (by decide) (by decide) (by decide) (by decide) (by decide) (by decide) (by decide) (by decide) (by decide)
theorem V_main_arg13 (c : Dev nD) : V m c main_arg13 = m ((c : Thread nD τ).loc main_arg13) :=
  V_kept m c main_arg13 (by decide) (by decide) (by decide) (by decide) (by decide) (by decide) (by decide) (by decide) (by decide) (by decide) (by decide)
theorem V_main_arg14 (c : Dev nD) : V m c main_arg14 = m ((c : Thread nD τ).loc main_arg14) :=
  V_kept m c main_arg14 (by decide) (by decide) (by decide) (by decide) (by decide) (by decide) (by decide) (by decide) (by decide) (by decide) (by decide)
theorem V_main_arg15 (c : Dev nD) : V m c main_arg15 = m ((c : Thread nD τ).loc main_arg15) :=
  V_kept m c main_arg15 (by decide) (by decide) (by decide) (by decide) (by decide) (by decide) (by decide) (by decide) (by decide) (by decide) (by decide)
theorem V_main_arg16 (c : Dev nD) : V m c main_arg16 = m ((c : Thread nD τ).loc main_arg16) :=
  V_kept m c main_arg16 (by decide) (by decide) (by decide) (by decide) (by decide) (by decide) (by decide) (by decide) (by decide) (by decide) (by decide)
theorem V_main_arg17 (c : Dev nD) : V m c main_arg17 = m ((c : Thread nD τ).loc main_arg17) :=
  V_kept m c main_arg17 (by decide) (by decide) (by decide) (by decide) (by decide) (by decide) (by decide) (by decide) (by decide) (by decide) (by decide)
theorem V_main_arg18 (c : Dev nD) : V m c main_arg18 = m ((c : Thread nD τ).loc main_arg18) :=
  V_kept m c main_arg18 (by decide) (by decide) (by decide) (by decide) (by decide) (by decide) (by decide) (by decide) (by decide) (by decide) (by decide)

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every tile, fetched there or not. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every tile, fetched there or not. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every tile, fetched there or not. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every tile, fetched there or not. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in each output tile -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rW : Rect S1536x4096 := Rect.unit (s := S1536x4096) ![0, 0] S1536x4096.size inb_S1536x4096_S1536x4096_0_0
abbrev rB : Rect S1x4096 := Rect.unit (s := S1x4096) ![0, 0] S1x4096.size inb_S1x4096_S1x4096_0_0

/-- The new cell state's tile, from the five input blocks: one store covering the buffer. -/
def cellOut (x0 : Vec F S256x512 .f32) (x1 : Vec F S256x1024 .f32) (x2 : Vec F S256x1024 .f32) (x3 : Vec F S1536x4096 .bf16) (x4 : Vec F S1x4096 .f32) : Vec F S256x1024 .f32 :=
  View.canon [⟨rH, k0_pay1 (k0_pay4 (View.ld x0 rX) (View.ld x1 rH) (View.ld x3 rW) (View.ld x4 rB)) (k0_pay5 (View.ld x0 rX) (View.ld x1 rH) (View.ld x3 rW) (View.ld x4 rB)) (k0_pay7 (View.ld x0 rX) (View.ld x1 rH) (View.ld x3 rW) (View.ld x4 rB) (View.ld x2 rH))⟩]

/-- The new hidden state's tile, from the five input blocks: one store covering the buffer. -/
def hiddenOut (x0 : Vec F S256x512 .f32) (x1 : Vec F S256x1024 .f32) (x2 : Vec F S256x1024 .f32) (x3 : Vec F S1536x4096 .bf16) (x4 : Vec F S1x4096 .f32) : Vec F S256x1024 .f32 :=
  View.canon [⟨rH, k0_pay2 (k0_pay4 (View.ld x0 rX) (View.ld x1 rH) (View.ld x3 rW) (View.ld x4 rB)) (k0_pay5 (View.ld x0 rX) (View.ld x1 rH) (View.ld x3 rW) (View.ld x4 rB)) (k0_pay6 (View.ld x0 rX) (View.ld x1 rH) (View.ld x3 rW) (View.ld x4 rB)) (k0_pay7 (View.ld x0 rX) (View.ld x1 rH) (View.ld x3 rW) (View.ld x4 rB) (View.ld x2 rH))⟩]

/-- A store through the whole rectangle covers the tile. -/
theorem cover_tile (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-! ## The body's triple -/

set_option maxHeartbeats 1000000 in
/-- The body on whole staging buffers, the five inputs at read contents and the two outputs at anything, returns
    with the inputs as they were and the outputs at `hiddenOut` and `cellOut` of the inputs. -/
theorem sound_kernel (c : Dev nD) (E : Set ℕ) (i : grid0.Coords)
    (arg1 : Memref sig .tc .vmem S256x512 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1536x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 : Vec F S256x512 .f32) (x1 : Vec F S256x1024 .f32) (x2 : Vec F S256x1024 .f32) (x3 : Vec F S1536x4096 .bf16) (x4 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hiddenOut x0 x1 x2 x3 x4) ∗ owns (c : Thread nD τ) arg7 fullShare (cellOut x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_tile _)
  iexists _; isplitr
  swap; · iexact H6
  ipureintro
  try dsimp only
  exact View.read_writes_eq_canon _ _ _ (cover_tile _)

/-! ## The pipeline's proof data -/

/-- The arrays as the region finds them; after the body at tile `t` each input's buffer at its block and each
    output's at its function of the input blocks; nothing kept between tiles beyond the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenOut (iblk m c 0 t) (iblk m c 1 t) (iblk m c 2 t) (iblk m c 3 t) (iblk m c 4 t)
    | ⟨6, _⟩ => cellOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_hidden (c : Dev nD) (t : Fin cfg0.N) : (dats m 0 c).after 5 t = hiddenOut (iblk m c 0 t) (iblk m c 1 t) (iblk m c 2 t) (iblk m c 3 t) (iblk m c 4 t) := by dsimp only [dats]
theorem after_cell (c : Dev nD) (t : Fin cfg0.N) : (dats m 0 c).after 6 t = cellOut (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d

/-! ## The body obligation, at a generic tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after_in0, after_in1, after_in2, after_in3, after_in4, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; at the end every array of the pipeline is what the
    proof data says and every other buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Cell

end
-- ==== Proof.CellFrameIdeal.lean ====
/-
  The frame run of the LSTM-cell program: eleven host operations (four four-way joins of the gate weights and
  biases, two transposes, two changes of float format, the join of the two weight matrices along the contracted
  axis, the sum of the two bias vectors and its reshape to a row), then one region over 32 batch tiles of 256 rows.
  At each tile the body loads the tile's rows of x, h and c, the whole fused weight matrix and the bias row, and
  stores the tile's rows of the new hidden state and the new cell state; it keeps nothing between tiles.  This
  module states what each output tile holds after the body as a function of the five input blocks, runs the body,
  and from that obtains the run of the whole program with every array named, and the frame.  Everything here is
  stated at any float instance.
-/
import proofs.«150322_j15693810500357_2_alg».proof.Proof.Gen.KernelIdeal.Launch
import proofs.«150322_j15693810500357_2_alg».proof.Proof.Gen.KernelIdeal.Skeleton
import proofs.«150322_j15693810500357_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the eleven host operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- A buffer that is none of the eleven host results is found by the region as launched. -/
theorem V_kept (c : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) (h8 : b ≠ main_v8) (h9 : b ≠ main_v9) (h10 : b ≠ main_v10) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9, StableHlo.devRef_ne_of_ne h10⟩))

theorem V_main_arg0 (c : Dev nD) : V m c main_arg0 = m ((c : Thread nD τ).loc main_arg0) :=
  V_kept m c main_arg0 (by decide) (by decide) (by decide) (by decide) (by decide) (by decide) (by decide) (by decide) (by decide) (by decide) (by decide)
theorem V_main_arg1 (c : Dev nD) : V m c main_arg1 = m ((c : Thread nD τ).loc main_arg1) :=
  V_kept m c main_arg1 (by decide) (by decide) (by decide) (by decide) (by decide) (by decide) (by decide) (by decide) (by decide) (by decide) (by decide)
theorem V_main_arg2 (c : Dev nD) : V m c main_arg2 = m ((c : Thread nD τ).loc main_arg2) :=
  V_kept m c main_arg2 (by decide) (by decide) (by decide) (by decide) (by decide) (by decide) (by decide) (by decide) (by decide) (by decide) (by decide)
theorem V_main_arg3 (c : Dev nD) : V m c main_arg3 = m ((c : Thread nD τ).loc main_arg3) :=
  V_kept m c main_arg3 (by decide) (by decide) (by decide) (by decide) (by decide) (by decide) (by decide) (by decide) (by decide) (by decide) (by decide)
theorem V_main_arg4 (c : Dev nD) : V m c main_arg4 = m ((c : Thread nD τ).loc main_arg4) :=
  V_kept m c main_arg4 (by decide) (by decide) (by decide) (by decide) (by decide) (by decide) (by decide) (by decide) (by decide) (by decide) (by decide)
theorem V_main_arg5 (c : Dev nD) : V m c main_arg5 = m ((c : Thread nD τ).loc main_arg5) :=
  V_kept m c main_arg5 (by decide) (by decide) (by decide) (by decide) (by decide) (by decide) (by decide) (by decide) (by decide) (by decide) (by decide)
theorem V_main_arg6 (c : Dev nD) : V m c main_arg6 = m ((c : Thread nD τ).loc main_arg6) :=
  V_kept m c main_arg6 (by decide) (by decide) (by decide) (by decide) (by decide) (by decide) (by decide) (by decide) (by decide) (by decide) (by decide)
theorem V_main_arg7 (c : Dev nD) : V m c main_arg7 = m ((c : Thread nD τ).loc main_arg7) :=
  V_kept m c main_arg7 (by decide) (by decide) (by decide) (by decide) (by decide) (by decide) (by decide) (by decide) (by decide) (by decide) (by decide)
theorem V_main_arg8 (c : Dev nD) : V m c main_arg8 = m ((c : Thread nD τ).loc main_arg8) :=
  V_kept m c main_arg8 (by decide) (by decide) (by decide) (by decide) (by decide) (by decide) (by decide) (by decide) (by decide) (by decide) (by decide)
theorem V_main_arg9 (c : Dev nD) : V m c main_arg9 = m ((c : Thread nD τ).loc main_arg9) :=
  V_kept m c main_arg9 (by decide) (by decide) (by decide) (by decide) (by decide) (by decide) (by decide) (by decide) (by decide) (by decide) (by decide)
theorem V_main_arg10 (c : Dev nD) : V m c main_arg10 = m ((c : Thread nD τ).loc main_arg10) :=
  V_kept m c main_arg10 (by decide) (by decide) (by decide) (by decide) (by decide) (by decide) (by decide) (by decide) (by decide) (by decide) (by decide)
theorem V_main_arg11 (c : Dev nD) : V m c main_arg11 = m ((c : Thread nD τ).loc main_arg11) :=
  V_kept m c main_arg11 (by decide) (by decide) (by decide) (by decide) (by decide) (by decide) (by decide) (by decide) (by decide) (by decide) (by decide)
theorem V_main_arg12 (c : Dev nD) : V m c main_arg12 = m ((c : Thread nD τ).loc main_arg12) :=
  V_kept m c main_arg12 (by decide) (by decide) (by decide) (by decide) (by decide) (by decide) (by decide) (by decide) (by decide) (by decide) (by decide)
theorem V_main_arg13 (c : Dev nD) : V m c main_arg13 = m ((c : Thread nD τ).loc main_arg13) :=
  V_kept m c main_arg13 (by decide) (by decide) (by decide) (by decide) (by decide) (by decide) (by decide) (by decide) (by decide) (by decide) (by decide)
theorem V_main_arg14 (c : Dev nD) : V m c main_arg14 = m ((c : Thread nD τ).loc main_arg14) :=
  V_kept m c main_arg14 (by decide) (by decide) (by decide) (by decide) (by decide) (by decide) (by decide) (by decide) (by decide) (by decide) (by decide)
theorem V_main_arg15 (c : Dev nD) : V m c main_arg15 = m ((c : Thread nD τ).loc main_arg15) :=
  V_kept m c main_arg15 (by decide) (by decide) (by decide) (by decide) (by decide) (by decide) (by decide) (by decide) (by decide) (by decide) (by decide)
theorem V_main_arg16 (c : Dev nD) : V m c main_arg16 = m ((c : Thread nD τ).loc main_arg16) :=
  V_kept m c main_arg16 (by decide) (by decide) (by decide) (by decide) (by decide) (by decide) (by decide) (by decide) (by decide) (by decide) (by decide)
theorem V_main_arg17 (c : Dev nD) : V m c main_arg17 = m ((c : Thread nD τ).loc main_arg17) :=
  V_kept m c main_arg17 (by decide) (by decide) (by decide) (by decide) (by decide) (by decide) (by decide) (by decide) (by decide) (by decide) (by decide)
theorem V_main_arg18 (c : Dev nD) : V m c main_arg18 = m ((c : Thread nD τ).loc main_arg18) :=
  V_kept m c main_arg18 (by decide) (by decide) (by decide) (by decide) (by decide) (by decide) (by decide) (by decide) (by decide) (by decide) (by decide)

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every tile, fetched there or not. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every tile, fetched there or not. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every tile, fetched there or not. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every tile, fetched there or not. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in each output tile -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rW : Rect S1536x4096 := Rect.unit (s := S1536x4096) ![0, 0] S1536x4096.size inb_S1536x4096_S1536x4096_0_0
abbrev rB : Rect S1x4096 := Rect.unit (s := S1x4096) ![0, 0] S1x4096.size inb_S1x4096_S1x4096_0_0

/-- The new cell state's tile, from the five input blocks: one store covering the buffer. -/
def cellOut (x0 : Vec F S256x512 .f32) (x1 : Vec F S256x1024 .f32) (x2 : Vec F S256x1024 .f32) (x3 : Vec F S1536x4096 .bf16) (x4 : Vec F S1x4096 .f32) : Vec F S256x1024 .f32 :=
  View.canon [⟨rH, k0_pay1 (k0_pay4 (View.ld x0 rX) (View.ld x1 rH) (View.ld x3 rW) (View.ld x4 rB)) (k0_pay5 (View.ld x0 rX) (View.ld x1 rH) (View.ld x3 rW) (View.ld x4 rB)) (k0_pay7 (View.ld x0 rX) (View.ld x1 rH) (View.ld x3 rW) (View.ld x4 rB) (View.ld x2 rH))⟩]

/-- The new hidden state's tile, from the five input blocks: one store covering the buffer. -/
def hiddenOut (x0 : Vec F S256x512 .f32) (x1 : Vec F S256x1024 .f32) (x2 : Vec F S256x1024 .f32) (x3 : Vec F S1536x4096 .bf16) (x4 : Vec F S1x4096 .f32) : Vec F S256x1024 .f32 :=
  View.canon [⟨rH, k0_pay2 (k0_pay4 (View.ld x0 rX) (View.ld x1 rH) (View.ld x3 rW) (View.ld x4 rB)) (k0_pay5 (View.ld x0 rX) (View.ld x1 rH) (View.ld x3 rW) (View.ld x4 rB)) (k0_pay6 (View.ld x0 rX) (View.ld x1 rH) (View.ld x3 rW) (View.ld x4 rB)) (k0_pay7 (View.ld x0 rX) (View.ld x1 rH) (View.ld x3 rW) (View.ld x4 rB) (View.ld x2 rH))⟩]

/-- A store through the whole rectangle covers the tile. -/
theorem cover_tile (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-! ## The body's triple -/

set_option maxHeartbeats 1000000 in
/-- The body on whole staging buffers, the five inputs at read contents and the two outputs at anything, returns
    with the inputs as they were and the outputs at `hiddenOut` and `cellOut` of the inputs. -/
theorem sound_kernel (c : Dev nD) (E : Set ℕ) (i : grid0.Coords)
    (arg1 : Memref sig .tc .vmem S256x512 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1536x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 : Vec F S256x512 .f32) (x1 : Vec F S256x1024 .f32) (x2 : Vec F S256x1024 .f32) (x3 : Vec F S1536x4096 .bf16) (x4 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hiddenOut x0 x1 x2 x3 x4) ∗ owns (c : Thread nD τ) arg7 fullShare (cellOut x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_tile _)
  iexists _; isplitr
  swap; · iexact H6
  ipureintro
  try dsimp only
  exact View.read_writes_eq_canon _ _ _ (cover_tile _)

/-! ## The pipeline's proof data -/

/-- The arrays as the region finds them; after the body at tile `t` each input's buffer at its block and each
    output's at its function of the input blocks; nothing kept between tiles beyond the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenOut (iblk m c 0 t) (iblk m c 1 t) (iblk m c 2 t) (iblk m c 3 t) (iblk m c 4 t)
    | ⟨6, _⟩ => cellOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_hidden (c : Dev nD) (t : Fin cfg0.N) : (dats m 0 c).after 5 t = hiddenOut (iblk m c 0 t) (iblk m c 1 t) (iblk m c 2 t) (iblk m c 3 t) (iblk m c 4 t) := by dsimp only [dats]
theorem after_cell (c : Dev nD) (t : Fin cfg0.N) : (dats m 0 c).after 6 t = cellOut (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d

/-! ## The body obligation, at a generic tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after_in0, after_in1, after_in2, after_in3, after_in4, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; at the end every array of the pipeline is what the
    proof data says and every other buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Cell

end
-- ==== Proof.LibLogistic.lean ====
/-
  The logistic function through the hyperbolic tangent, and two facts about finite sums of real numbers.

  For every real v,  1 / (1 + e^(-v)) = tanh (v / 2) / 2 + 1 / 2:  with a = e^(v/2) both sides are a / (a + 1/a).
  A gate written as "tanh of half the reading, halved, plus one half" is therefore the logistic gate.
  The inclusion of the reals in the extended reals commutes with finite sums, and a factor 1/2 inside each product of a
  finite sum of real products moves out of the sum.
-/
import Mathlib.Analysis.SpecialFunctions.Trigonometric.DerivHyp
import Mathlib.Data.EReal.Basic

noncomputable section

namespace Cert.LibLogistic

open scoped BigOperators

/-- The inclusion of the reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The logistic function through the hyperbolic tangent. -/
theorem sigmoid_tanh (v : ℝ) : (1 + Real.exp (-v))⁻¹ = 1 / 2 * Real.tanh (1 / 2 * v) + 1 / 2 := by
  rw [Real.tanh_eq_sinh_div_cosh, Real.sinh_eq, Real.cosh_eq]
  have h2 : Real.exp (-v) = Real.exp (-(1 / 2 * v)) * Real.exp (-(1 / 2 * v)) := by
    rw [← Real.exp_add]; congr 1; ring
  rw [h2, Real.exp_neg]
  have ha : 0 < Real.exp (1 / 2 * v) := Real.exp_pos _
  generalize Real.exp (1 / 2 * v) = a at ha ⊢
  have ha' : a ≠ 0 := ha.ne'
  have h3 : a * a + 1 ≠ 0 := by positivity
  field_simp
  ring

/-- Halving moves across a finite sum of real products. -/
theorem sum_mul_half {n : ℕ} (x w : Fin n → ℝ) : ∑ k, x k * (1 / 2 * w k) = 1 / 2 * ∑ k, x k * w k := by
  rw [Finset.mul_sum]; exact Finset.sum_congr rfl fun k _ => by ring

end Cert.LibLogistic

end
-- ==== Proof.LibGateTotal.lean ====
/-
  The logistic gate on the extended reals, in its two usual spellings, and the float words of one and one half.

  1 / (1 + e^(-v))  and  ½·tanh(½·v) + ½  are the same function at EVERY extended real: at a real v both are
  a / (a + 1/a) with a = e^(v/2); at +∞ the first is 1 / (1 + 0) = 1 and the second ½·1 + ½ = 1; at -∞ the first is
  1 / (1 + ∞) = 1·0 = 0 and the second ½·(-1) + ½ = 0.  So a gate computed through tanh equals a gate computed through
  the exponential with no finiteness hypothesis on its argument.  The constants are the f32 words 0x3F800000 (one) and
  0x3F000000 (one half), read exactly.
-/
import Idealize.ShloMosaic.PureOps.Ideal
import Idealize.ShloMosaic.PureOps.Ideal.Laws
import proofs.«150322_j15693810500357_2_alg».proof.Proof.LibLogistic

noncomputable section

namespace Cert.LibGateTotal

open Idealize.ShloMosaic

/-! ## The two float words -/

/-- The float word of one. -/
abbrev one32 : EReal := Ideal.ofBits .f32 0x3F800000#32
/-- The float word of one half. -/
abbrev half32 : EReal := Ideal.ofBits .f32 0x3F000000#32

theorem one32_eq : one32 = ((1 : ℝ) : EReal) := by
  simp [one32, Ideal.ofBits, Ideal.ieee, -EReal.coe_mul]; norm_num

theorem half32_eq : half32 = ((1 / 2 : ℝ) : EReal) := by
  simp [half32, Ideal.ofBits, Ideal.ieee, -EReal.coe_mul]; norm_num

/-! ## The logistic gate, two spellings -/

/-- 1 / (1 + e^(-v)). -/
def gateExp (v : EReal) : EReal := Ideal.div one32 (one32 + Ideal.exp (-v))

/-- ½·tanh(½·v) + ½. -/
def gateTanh (v : EReal) : EReal := half32 * Ideal.tanh (half32 * v) + half32

/-- The two spellings agree at every extended real. -/
theorem gateTanh_eq_gateExp (v : EReal) : gateTanh v = gateExp v := by
  unfold gateTanh gateExp
  rw [one32_eq, half32_eq]
  induction v using EReal.rec with
  | bot =>
    have h1 : ((1 / 2 : ℝ) : EReal) * ⊥ = ⊥ := EReal.coe_mul_bot_of_pos (by norm_num)
    rw [h1, Ideal.tanh_bot, EReal.neg_bot, Ideal.exp_top]
    have h2 : ((1 : ℝ) : EReal) + ⊤ = ⊤ := EReal.add_top_of_ne_bot (EReal.coe_ne_bot _)
    rw [h2, Ideal.div, if_neg EReal.top_ne_zero, EReal.inv_top, mul_zero]
    have : ((1 / 2 : ℝ) : EReal) * (-1) + ((1 / 2 : ℝ) : EReal) = ((1 / 2 * (-1) + 1 / 2 : ℝ) : EReal) := by
      push_cast; rfl
    rw [this]; norm_num
  | coe r =>
    have hpos : (1 + Real.exp (-r)) ≠ 0 := by positivity
    rw [← EReal.coe_mul, Ideal.tanh_coe, ← EReal.coe_mul, ← EReal.coe_add, ← EReal.coe_neg, Ideal.exp_coe,
      ← EReal.coe_add, Ideal.div_coe hpos, ← EReal.coe_mul, ← Cert.LibLogistic.sigmoid_tanh]
    congr 1; field_simp
  | top =>
    have h1 : ((1 / 2 : ℝ) : EReal) * ⊤ = ⊤ := EReal.coe_mul_top_of_pos (by norm_num)
    rw [h1, Ideal.tanh_top, EReal.neg_top, Ideal.exp_bot, add_zero]
    have h2 : Ideal.div ((1 : ℝ) : EReal) ((1 : ℝ) : EReal) = ((1 : ℝ) : EReal) := by
      rw [Ideal.div_coe (by norm_num)]; rw [← EReal.coe_mul]; norm_num
    rw [h2]
    have : ((1 / 2 : ℝ) : EReal) * 1 + ((1 / 2 : ℝ) : EReal) = ((1 / 2 * 1 + 1 / 2 : ℝ) : EReal) := by
      push_cast; rfl
    rw [this]; norm_num

end Cert.LibGateTotal

end
-- ==== Proof.CellSpec.lean ====
/-
  The mathematics of one LSTM cell step, on the extended reals, with no program in sight.

  For a batch row with input entries x (512 of them) and previous hidden entries h (1024), gate weights Wx, Wh and
  biases bx, bh over the 4096 gate columns, the pre-activation of column j is read in two groupings:
    the two-product one   ((Σ_k x_k·Wx_{j,k} + bx_j) + Σ_k h_k·Wh_{j,k}) + bh_j,
    the fused one         Σ_{k<1536} [x|h]_k · [Wx;Wh]_{k,j} + (bx_j + bh_j),
  where [x|h] is x followed by h and [Wx;Wh] stacks the transposed weights the same way.  A sum over 1536 = 512 + 1024
  terms is the sum of its first 512 and its last 1024 terms, and + on the extended reals is commutative and associative,
  so the two agree at every extended real — no finiteness is needed.

  The logistic gate is spelt 1 / (1 + e^(-v)) on one side and ½·tanh(½·v) + ½ on the other.  They agree at every real v
  (both are a/(a + 1/a) with a = e^(v/2)), at +∞ (both 1) and at -∞ (both 0).

  The new cell state is  f·c + i·tanh(g)  and the new hidden state  o·(new cell state), with i, f, o the gates of
  columns q, 1024+q, 2048+q and g the pre-activation of column 3072+q.
-/
import Idealize.ShloMosaic.PureOps.Ideal
import Idealize.ShloMosaic.PureOps.Ideal.Laws
import proofs.«150322_j15693810500357_2_alg».proof.Proof.LibGateTotal

noncomputable section

namespace Cert.CellSpec

open Idealize.ShloMosaic
open scoped BigOperators

/-! ## The logistic gate: the two spellings and their equality at every extended real -/

export Cert.LibGateTotal (one32 half32 one32_eq half32_eq gateExp gateTanh gateTanh_eq_gateExp)

/-! ## A row with its continuation, the stacked weights, and the sum over both -/

/-- x followed by h. -/
def joinRow (x : Fin 512 → EReal) (h : Fin 1024 → EReal) (k : Fin 1536) : EReal :=
  if hk : k.val < 512 then x ⟨k.val, hk⟩ else h ⟨k.val - 512, by have := k.isLt; omega⟩

/-- The transposed weights stacked the same way: row k of the stack is column k of Wx for k < 512, column k - 512 of Wh after. -/
def stackCols (Wx : Fin 4096 → Fin 512 → EReal) (Wh : Fin 4096 → Fin 1024 → EReal) (k : Fin 1536) (j : Fin 4096) : EReal :=
  if hk : k.val < 512 then Wx j ⟨k.val, hk⟩ else Wh j ⟨k.val - 512, by have := k.isLt; omega⟩

/-- A sum over the joined row against the stacked weights is the sum of the two products. -/
theorem sum_join (x : Fin 512 → EReal) (h : Fin 1024 → EReal) (Wx : Fin 4096 → Fin 512 → EReal)
    (Wh : Fin 4096 → Fin 1024 → EReal) (j : Fin 4096) :
    ∑ k : Fin 1536, joinRow x h k * stackCols Wx Wh k j = (∑ k : Fin 512, x k * Wx j k) + ∑ k : Fin 1024, h k * Wh j k := by
  have e := Fin.sum_univ_add (a := 512) (b := 1024) (fun k : Fin (512 + 1024) => joinRow x h k * stackCols Wx Wh k j)
  refine e.trans (congrArg₂ (· + ·) ?_ ?_)
  · refine Finset.sum_congr rfl fun k _ => ?_
    have hk : (Fin.castAdd 1024 k).val < 512 := k.isLt
    unfold joinRow stackCols
    rw [dif_pos hk, dif_pos hk]
    rfl
  · refine Finset.sum_congr rfl fun k _ => ?_
    have hk : ¬ (Fin.natAdd 512 k).val < 512 := by
      show ¬ (512 + k.val < 512)
      omega
    have hv : ∀ p : (Fin.natAdd 512 k).val - 512 < 1024, (⟨(Fin.natAdd 512 k).val - 512, p⟩ : Fin 1024) = k := fun p =>
      Fin.ext (by show 512 + k.val - 512 = k.val; omega)
    unfold joinRow stackCols
    rw [dif_neg hk, dif_neg hk, hv]

/-! ## The pre-activation, two groupings -/

/-- ((x·Wxᵀ + bx) + h·Whᵀ) + bh at column j. -/
def preTwo (x : Fin 512 → EReal) (h : Fin 1024 → EReal) (Wx : Fin 4096 → Fin 512 → EReal) (bx : Fin 4096 → EReal)
    (Wh : Fin 4096 → Fin 1024 → EReal) (bh : Fin 4096 → EReal) (j : Fin 4096) : EReal :=
  (((∑ k : Fin 512, x k * Wx j k) + bx j) + ∑ k : Fin 1024, h k * Wh j k) + bh j

/-- [x|h]·[Wx;Wh] + (bx + bh) at column j. -/
def preFused (x : Fin 512 → EReal) (h : Fin 1024 → EReal) (Wx : Fin 4096 → Fin 512 → EReal) (bx : Fin 4096 → EReal)
    (Wh : Fin 4096 → Fin 1024 → EReal) (bh : Fin 4096 → EReal) (j : Fin 4096) : EReal :=
  (∑ k : Fin 1536, joinRow x h k * stackCols Wx Wh k j) + (bx j + bh j)

theorem preFused_eq_preTwo (x : Fin 512 → EReal) (h : Fin 1024 → EReal) (Wx : Fin 4096 → Fin 512 → EReal) (bx : Fin 4096 → EReal)
    (Wh : Fin 4096 → Fin 1024 → EReal) (bh : Fin 4096 → EReal) : preFused x h Wx bx Wh bh = preTwo x h Wx bx Wh bh := by
  funext j
  unfold preFused preTwo
  rw [sum_join]
  abel

/-! ## The gate columns and the new states -/

def colI (q : Fin 1024) : Fin 4096 := ⟨0 + q.val, by have := q.isLt; omega⟩
def colF (q : Fin 1024) : Fin 4096 := ⟨1024 + q.val, by have := q.isLt; omega⟩
def colO (q : Fin 1024) : Fin 4096 := ⟨2048 + q.val, by have := q.isLt; omega⟩
def colG (q : Fin 1024) : Fin 4096 := ⟨3072 + q.val, by have := q.isLt; omega⟩

/-- f·c + i·tanh(g), the gates by the spelling `σ`. -/
def cellNew (σ : EReal → EReal) (g : Fin 4096 → EReal) (cval : EReal) (q : Fin 1024) : EReal :=
  σ (g (colF q)) * cval + σ (g (colI q)) * Ideal.tanh (g (colG q))

/-- o·(new cell state). -/
def hiddenNew (σ : EReal → EReal) (g : Fin 4096 → EReal) (cval : EReal) (q : Fin 1024) : EReal :=
  σ (g (colO q)) * cellNew σ g cval q

/-- The fused pre-activation with the tanh spelling gives the same new cell state as the two-product one with the
    exponential spelling. -/
theorem cell_agree (x : Fin 512 → EReal) (h : Fin 1024 → EReal) (Wx : Fin 4096 → Fin 512 → EReal) (bx : Fin 4096 → EReal)
    (Wh : Fin 4096 → Fin 1024 → EReal) (bh : Fin 4096 → EReal) (cval : EReal) (q : Fin 1024) :
    cellNew gateTanh (preFused x h Wx bx Wh bh) cval q = cellNew gateExp (preTwo x h Wx bx Wh bh) cval q := by
  rw [preFused_eq_preTwo, (funext gateTanh_eq_gateExp : gateTanh = gateExp)]

theorem hidden_agree (x : Fin 512 → EReal) (h : Fin 1024 → EReal) (Wx : Fin 4096 → Fin 512 → EReal) (bx : Fin 4096 → EReal)
    (Wh : Fin 4096 → Fin 1024 → EReal) (bh : Fin 4096 → EReal) (cval : EReal) (q : Fin 1024) :
    hiddenNew gateTanh (preFused x h Wx bx Wh bh) cval q = hiddenNew gateExp (preTwo x h Wx bx Wh bh) cval q := by
  rw [preFused_eq_preTwo, (funext gateTanh_eq_gateExp : gateTanh = gateExp)]

end Cert.CellSpec

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.CellTile.lean ====
/-
  One batch tile of the LSTM cell, read entry by entry on the extended reals.

  The body's arithmetic on the five blocks it loads — a tile of x (256 rows of 512), of h and of c (256 rows of 1024),
  the fused weight matrix (1536 by 4096) and the bias row — is: join each row of x with the same row of h, multiply by
  the weights, add the bias row, cut the result into the four gate stretches of 1024 columns, and combine.  At row r
  the pre-activation of column j is the sum over the 1536 joined entries against column j of the weights, plus the
  bias entry j; the entry (r, q) of the new cell state and of the new hidden state are the cell formulas of that row's
  pre-activations with the gate spelt through tanh.
-/
import proofs.«150322_j15693810500357_2_alg».proof.Proof.Gen.KernelIdeal.Skeleton
import proofs.«150322_j15693810500357_2_alg».proof.Proof.CellSpec
import proofs.«150322_j15693810500357_2_alg».proof.Proof.LibPlainDot
import proofs.«150322_j15693810500357_2_alg».proof.Proof.LibColsJoin
import proofs.«150322_j15693810500357_2_alg».proof.Proof.LibColsCut
import Idealize.ShloMosaic.Lib.Pipeline.Value
import Idealize.ShloMosaic.Lib.ValueIdx

set_option maxRecDepth 16384

noncomputable section

namespace Cert.KernelIdeal.CellTile

open Cert.KernelIdeal Cert.KernelIdeal.Gen Cert.CellSpec
open Idealize.ShloMosaic Idealize.ShloMosaic.ValueIdx
open scoped BigOperators

variable (L0 : Vec Ideal S256x512 .f32) (L1 : Vec Ideal S256x1024 .f32) (L2 : Vec Ideal S256x1024 .f32)
  (L3 : Vec Ideal S1536x4096 .bf16) (L4 : Vec Ideal S1x4096 .f32)

/-- Row r's pre-activations from the blocks: the joined row against the weights' columns, plus the bias row. -/
def tilePre (r : Fin 256) (j : Fin 4096) : EReal :=
  (∑ k : Fin 1536, joinRow (fun k => L0 (ix2 r k)) (fun k => L1 (ix2 r k)) k * L3 (ix2 k j)) + L4 (ix2 (0 : Fin 1) j)

/-- The joined tile [x|h] at (r, k). -/
theorem joined_at (r : Fin 256) (k : Fin 1536) :
    concatenate S256x1536 1 [⟨S256x512, (truncf .bf16 L0 bitsLt_bf16_f32 : FVec Ideal S256x512 .bf16)⟩, ⟨S256x1024, (truncf .bf16 L1 bitsLt_bf16_f32 : FVec Ideal S256x1024 .bf16)⟩]
        concatenates_S256x512_S256x1024_S256x1536_d1 (ix2 r k)
      = joinRow (fun k => L0 (ix2 r k)) (fun k => L1 (ix2 r k)) k := by
  unfold joinRow
  by_cases hk : k.val < 512
  · rw [dif_pos hk]
    exact Cert.LibColsJoin.cat_cols_left _ _ _ r ⟨k.val, hk⟩ k rfl
  · rw [dif_neg hk]
    refine Cert.LibColsJoin.cat_cols_right _ _ _ r ⟨k.val - 512, by have := k.isLt; omega⟩ k ?_
    show k.val = 512 + (k.val - 512)
    omega

/-- The pre-activation block at (r, j). -/
theorem pre_at (r : Fin 256) (j : Fin 4096) : k0_pay3 (F := Ideal) L0 L1 L3 L4 (ix2 r j) = tilePre L0 L1 L3 L4 r j := by
  unfold k0_pay3 tilePre
  rw [addf_apply, shapeCast_self, shapeCast_self]
  refine congrArg₂ (· + ·) ?_ ?_
  · refine (Cert.LibPlainDot.matmul_plain_apply (φ₁ := .bf16) (φ₂ := .bf16) dot_S256x1536_S1536x4096_S256x4096_1_0_0_1_n_n rfl rfl rfl rfl rfl rfl none _ L3 r j).trans ?_
    refine Finset.sum_congr rfl fun k _ => ?_
    rw [joined_at]
  · exact Cert.LibColsJoin.bcast_row (by norm_num) L4 _ r j

/-- A gate stretch cut from the pre-activation block. -/
theorem cut_at (off : ℕ) (h : S256x4096.Slices ![0, off] S256x1024) (r : Fin 256) (q : Fin 1024) (j : Fin 4096) (hj : j.val = off + q.val) :
    extractStridedSlice S256x1024 ![0, off] (k0_pay3 (F := Ideal) L0 L1 L3 L4) h (ix2 r q) = tilePre L0 L1 L3 L4 r j := by
  rw [Cert.LibColsCut.slice_cols off _ h r q j hj, pre_at]

/-- The candidate column's pre-activation. -/
theorem cand_at (r : Fin 256) (q : Fin 1024) : k0_pay4 (F := Ideal) L0 L1 L3 L4 (ix2 r q) = tilePre L0 L1 L3 L4 r (colG q) := by
  unfold k0_pay4
  exact cut_at L0 L1 L3 L4 3072 _ r q (colG q) rfl

/-- The input gate. -/
theorem igate_at (r : Fin 256) (q : Fin 1024) : k0_pay5 (F := Ideal) L0 L1 L3 L4 (ix2 r q) = gateTanh (tilePre L0 L1 L3 L4 r (colI q)) := by
  unfold k0_pay5 gateTanh
  show half32 * Ideal.tanh (half32 * extractStridedSlice S256x1024 ![0, 0] (k0_pay3 (F := Ideal) L0 L1 L3 L4) slices_S256x4096_o0_0_S256x1024 (ix2 r q)) + half32 = _
  rw [cut_at L0 L1 L3 L4 0 _ r q (colI q) rfl]

/-- The output gate. -/
theorem ogate_at (r : Fin 256) (q : Fin 1024) : k0_pay6 (F := Ideal) L0 L1 L3 L4 (ix2 r q) = gateTanh (tilePre L0 L1 L3 L4 r (colO q)) := by
  unfold k0_pay6 gateTanh
  show half32 * Ideal.tanh (half32 * extractStridedSlice S256x1024 ![0, 2048] (k0_pay3 (F := Ideal) L0 L1 L3 L4) slices_S256x4096_o0_2048_S256x1024 (ix2 r q)) + half32 = _
  rw [cut_at L0 L1 L3 L4 2048 _ r q (colO q) rfl]

/-- The forget gate times the old cell state. -/
theorem keep_at (r : Fin 256) (q : Fin 1024) :
    k0_pay7 (F := Ideal) L0 L1 L3 L4 L2 (ix2 r q) = gateTanh (tilePre L0 L1 L3 L4 r (colF q)) * L2 (ix2 r q) := by
  unfold k0_pay7 gateTanh
  show (half32 * Ideal.tanh (half32 * extractStridedSlice S256x1024 ![0, 1024] (k0_pay3 (F := Ideal) L0 L1 L3 L4) slices_S256x4096_o0_1024_S256x1024 (ix2 r q)) + half32) * L2 (ix2 r q) = _
  rw [cut_at L0 L1 L3 L4 1024 _ r q (colF q) rfl]

/-- The new cell state's tile at (r, q). -/
theorem cell_at (r : Fin 256) (q : Fin 1024) :
    k0_pay1 (F := Ideal) (k0_pay4 L0 L1 L3 L4) (k0_pay5 L0 L1 L3 L4) (k0_pay7 L0 L1 L3 L4 L2) (ix2 r q)
      = cellNew gateTanh (tilePre L0 L1 L3 L4 r) (L2 (ix2 r q)) q := by
  unfold k0_pay1 cellNew
  show k0_pay7 (F := Ideal) L0 L1 L3 L4 L2 (ix2 r q) + k0_pay5 (F := Ideal) L0 L1 L3 L4 (ix2 r q) * Ideal.tanh (k0_pay4 (F := Ideal) L0 L1 L3 L4 (ix2 r q)) = _
  rw [keep_at, igate_at, cand_at]

/-- The new hidden state's tile at (r, q). -/
theorem hidden_at (r : Fin 256) (q : Fin 1024) :
    k0_pay2 (F := Ideal) (k0_pay4 L0 L1 L3 L4) (k0_pay5 L0 L1 L3 L4) (k0_pay6 L0 L1 L3 L4) (k0_pay7 L0 L1 L3 L4 L2) (ix2 r q)
      = hiddenNew gateTanh (tilePre L0 L1 L3 L4 r) (L2 (ix2 r q)) q := by
  unfold k0_pay2 hiddenNew
  show k0_pay6 (F := Ideal) L0 L1 L3 L4 (ix2 r q) * k0_pay1 (F := Ideal) (k0_pay4 L0 L1 L3 L4) (k0_pay5 L0 L1 L3 L4) (k0_pay7 L0 L1 L3 L4 L2) (ix2 r q) = _
  rw [ogate_at, cell_at]

end Cert.KernelIdeal.CellTile

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.CellHost.lean ====
/-
  What the region finds in the two arrays the host operations prepare, on the extended reals.

  The fused weight matrix is the transpose of the four input-weight matrices stacked in gate order, placed over the
  transpose of the four hidden-weight matrices stacked the same way (a change of float format is the identity on the
  extended reals): its entry (k, j) is entry (j, k) of the stacked input weights for k < 512 and entry (j, k - 512) of
  the stacked hidden weights after.  The bias row is the entrywise sum of the two stacked bias vectors.  The four
  stackings themselves are never opened: both programs build them from the same arrays in the same order.
-/
import proofs.«150322_j15693810500357_2_alg».proof.Proof.CellFrameIdeal
import proofs.«150322_j15693810500357_2_alg».proof.Proof.CellSpec
import proofs.«150322_j15693810500357_2_alg».proof.Proof.LibRow
import Idealize.ShloMosaic.Lib.StableHlo.Run
import Idealize.ShloMosaic.Lib.Pipeline.Value
import Idealize.ShloMosaic.Lib.ValueIdx

set_option maxRecDepth 16384

noncomputable section

namespace Cert.KernelIdeal.CellHost

open Cert.KernelIdeal Cert.KernelIdeal.Gen Cert.KernelIdeal.Cell Cert.CellSpec
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The four input-weight matrices, one under the other in gate order. -/
def wxJoin (c : Dev nD) : FVec Ideal S4096x512 .f32 :=
  concatenate S4096x512 0 [⟨S1024x512, (m ((c : Thread nD τ).loc main_arg3) : FVec Ideal S1024x512 .f32)⟩, ⟨S1024x512, (m ((c : Thread nD τ).loc main_arg7) : FVec Ideal S1024x512 .f32)⟩, ⟨S1024x512, (m ((c : Thread nD τ).loc main_arg11) : FVec Ideal S1024x512 .f32)⟩, ⟨S1024x512, (m ((c : Thread nD τ).loc main_arg15) : FVec Ideal S1024x512 .f32)⟩] concatenates_S1024x512_S1024x512_S1024x512_S1024x512_S4096x512_d0

/-- The four hidden-weight matrices, one under the other in gate order. -/
def whJoin (c : Dev nD) : FVec Ideal S4096x1024 .f32 :=
  concatenate S4096x1024 0 [⟨S1024x1024, (m ((c : Thread nD τ).loc main_arg5) : FVec Ideal S1024x1024 .f32)⟩, ⟨S1024x1024, (m ((c : Thread nD τ).loc main_arg9) : FVec Ideal S1024x1024 .f32)⟩, ⟨S1024x1024, (m ((c : Thread nD τ).loc main_arg13) : FVec Ideal S1024x1024 .f32)⟩, ⟨S1024x1024, (m ((c : Thread nD τ).loc main_arg17) : FVec Ideal S1024x1024 .f32)⟩] concatenates_S1024x1024_S1024x1024_S1024x1024_S1024x1024_S4096x1024_d0

/-- The four input-side bias vectors, end to end in gate order. -/
def bxJoin (c : Dev nD) : FVec Ideal S4096 .f32 :=
  concatenate S4096 0 [⟨S1024, (m ((c : Thread nD τ).loc main_arg4) : FVec Ideal S1024 .f32)⟩, ⟨S1024, (m ((c : Thread nD τ).loc main_arg8) : FVec Ideal S1024 .f32)⟩, ⟨S1024, (m ((c : Thread nD τ).loc main_arg12) : FVec Ideal S1024 .f32)⟩, ⟨S1024, (m ((c : Thread nD τ).loc main_arg16) : FVec Ideal S1024 .f32)⟩] concatenates_S1024_S1024_S1024_S1024_S4096_d0

/-- The four hidden-side bias vectors, end to end in gate order. -/
def bhJoin (c : Dev nD) : FVec Ideal S4096 .f32 :=
  concatenate S4096 0 [⟨S1024, (m ((c : Thread nD τ).loc main_arg6) : FVec Ideal S1024 .f32)⟩, ⟨S1024, (m ((c : Thread nD τ).loc main_arg10) : FVec Ideal S1024 .f32)⟩, ⟨S1024, (m ((c : Thread nD τ).loc main_arg14) : FVec Ideal S1024 .f32)⟩, ⟨S1024, (m ((c : Thread nD τ).loc main_arg18) : FVec Ideal S1024 .f32)⟩] concatenates_S1024_S1024_S1024_S1024_S4096_d0

/-- The bias row the region finds: the sum of the two joined bias vectors, as a row. -/
theorem V_bias (c : Dev nD) : (V m c main_v10 : FVec Ideal S1x4096 .f32) =
    shapeCast S1x4096 (addf (bxJoin m c) (bhJoin m c)) shapeCasts_S4096_S1x4096 := by
  unfold bxJoin bhJoin
  dsimp only [V, hostOps0]
  simp only [List.flatten_cons, List.flatten_nil, List.append_nil]
  after_results
  rfl

/-- The fused weight matrix the region finds: the transposed joined input weights over the transposed joined hidden weights. -/
theorem V_fused (c : Dev nD) : (V m c main_v8 : FVec Ideal S1536x4096 .bf16) =
    concatenate S1536x4096 0
      [⟨S512x4096, (truncf .bf16 (transpose S512x4096 [1, 0] (wxJoin m c) transposes_S4096x512_S512x4096_1_0) bitsLt_bf16_f32 : FVec Ideal S512x4096 .bf16)⟩,
       ⟨S1024x4096, (truncf .bf16 (transpose S1024x4096 [1, 0] (whJoin m c) transposes_S4096x1024_S1024x4096_1_0) bitsLt_bf16_f32 : FVec Ideal S1024x4096 .bf16)⟩]
      concatenates_S512x4096_S1024x4096_S1536x4096_d0 := by
  unfold wxJoin whJoin
  dsimp only [V, hostOps0]
  simp only [List.flatten_cons, List.flatten_nil, List.append_nil]
  after_results
  rfl

/-- The stacked input weights by coordinates: gate column j, input entry k. -/
def wxAt (c : Dev nD) (j : Fin 4096) (k : Fin 512) : EReal := wxJoin m c (ix2 j k)
/-- The stacked hidden weights by coordinates. -/
def whAt (c : Dev nD) (j : Fin 4096) (k : Fin 1024) : EReal := whJoin m c (ix2 j k)
/-- The stacked input-side biases by coordinate. -/
def bxAt (c : Dev nD) (j : Fin 4096) : EReal := bxJoin m c (ix1 j)
/-- The stacked hidden-side biases by coordinate. -/
def bhAt (c : Dev nD) (j : Fin 4096) : EReal := bhJoin m c (ix1 j)

/-- Entry (k, j) of the fused weight matrix. -/
theorem fused_at (c : Dev nD) (k : Fin 1536) (j : Fin 4096) :
    (V m c main_v8 : FVec Ideal S1536x4096 .bf16) (ix2 k j) = stackCols (wxAt m c) (whAt m c) k j := by
  rw [V_fused]
  unfold stackCols wxAt whAt
  by_cases hk : k.val < 512
  · rw [dif_pos hk]
    refine (concatenate_pair_apply_left (t := S1536x4096) (s₁ := S512x4096) (s₂ := S1024x4096) (0 : Fin 2) _ _ concatenates_S512x4096_S1024x4096_S1536x4096_d0 (ix2 k j) rfl
      (ix2 (⟨k.val, hk⟩ : Fin 512) j) (fun b => by match b with | ⟨0, _⟩ => rfl | ⟨1, _⟩ => rfl)).trans ?_
    rw [truncf_apply]
    exact transpose_apply [1, 0] (wxJoin m c) transposes_S4096x512_S512x4096_1_0 (ix2 (⟨k.val, hk⟩ : Fin 512) j) (ix2 j (⟨k.val, hk⟩ : Fin 512))
      (fun b => by match b with | ⟨0, _⟩ => rfl | ⟨1, _⟩ => rfl)
  · rw [dif_neg hk]
    have hk' : k.val - 512 < 1024 := by have := k.isLt; omega
    refine (concatenate_pair_apply_right (t := S1536x4096) (s₁ := S512x4096) (s₂ := S1024x4096) (0 : Fin 2) _ _ concatenates_S512x4096_S1024x4096_S1536x4096_d0 (ix2 k j) rfl rfl
      (ix2 (⟨k.val - 512, hk'⟩ : Fin 1024) j) (fun b hb => by match b with | ⟨0, _⟩ => exact absurd rfl hb | ⟨1, _⟩ => rfl) ?_).trans ?_
    · show k.val - 512 + 512 = k.val
      omega
    · rw [truncf_apply]
      exact transpose_apply [1, 0] (whJoin m c) transposes_S4096x1024_S1024x4096_1_0 (ix2 (⟨k.val - 512, hk'⟩ : Fin 1024) j) (ix2 j (⟨k.val - 512, hk'⟩ : Fin 1024))
        (fun b => by match b with | ⟨0, _⟩ => rfl | ⟨1, _⟩ => rfl)

/-- Entry j of the bias row. -/
theorem bias_at (c : Dev nD) (j : Fin 4096) :
    (V m c main_v10 : FVec Ideal S1x4096 .f32) (ix2 (0 : Fin 1) j) = bxAt m c j + bhAt m c j := by
  rw [V_bias, Cert.LibRow.row_apply, addf_apply]
  rfl

end Cert.KernelIdeal.CellHost

end
-- ==== Proof.CellArrays.lean ====
/-
  From tiles to whole arrays.

  Tile t of the region works on batch rows 256·t … 256·t + 255: the blocks of x, h and c it loads are those rows of
  the arrays, the weight and bias blocks are the whole fused weight matrix and the whole bias row at every tile, and
  what it writes back is those rows of the two results.  So entry (p, q) of the new cell state is the cell formula of
  row p's fused pre-activations, whatever the tile — one function of the arrays, index by index — and the 32 tiles
  cover all 8192 rows (row p lies in tile p / 256).  The same for the new hidden state.  The program's run is then
  re-posted with both results named as those functions and the nineteen arguments unchanged.
-/
import proofs.«150322_j15693810500357_2_alg».proof.Proof.CellFrameIdeal
import proofs.«150322_j15693810500357_2_alg».proof.Proof.CellTile
import proofs.«150322_j15693810500357_2_alg».proof.Proof.CellHost
import proofs.«150322_j15693810500357_2_alg».proof.Proof.CellSpec
import Idealize.ShloMosaic.Lib.Pipeline.Value
import Idealize.ShloMosaic.Lib.ValueIdx

set_option maxRecDepth 16384

noncomputable section

namespace Cert.KernelIdeal.CellArrays

open Cert.KernelIdeal Cert.KernelIdeal.Gen Cert.KernelIdeal.Cell Cert.KernelIdeal.CellTile Cert.KernelIdeal.CellHost Cert.CellSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays by coordinates, and the two results as functions of them -/

/-- Row p of x. -/
def xRow (c : Dev nD) (p : Fin 8192) (k : Fin 512) : EReal := (m ((c : Thread nD τ).loc main_arg0) : FVec Ideal S8192x512 .f32) (ix2 p k)
/-- Row p of h. -/
def hRow (c : Dev nD) (p : Fin 8192) (k : Fin 1024) : EReal := (m ((c : Thread nD τ).loc main_arg1) : FVec Ideal S8192x1024 .f32) (ix2 p k)
/-- Entry (p, q) of the old cell state. -/
def cAt (c : Dev nD) (p : Fin 8192) (q : Fin 1024) : EReal := (m ((c : Thread nD τ).loc main_arg2) : FVec Ideal S8192x1024 .f32) (ix2 p q)

/-- Row p's fused pre-activations. -/
def rowPre (c : Dev nD) (p : Fin 8192) : Fin 4096 → EReal :=
  preFused (xRow m c p) (hRow m c p) (wxAt m c) (bxAt m c) (whAt m c) (bhAt m c)

/-- Entry (p, q) of the new cell state. -/
def cellEntry (c : Dev nD) (p : Fin 8192) (q : Fin 1024) : EReal := cellNew gateTanh (rowPre m c p) (cAt m c p q) q
/-- Entry (p, q) of the new hidden state. -/
def hiddenEntry (c : Dev nD) (p : Fin 8192) (q : Fin 1024) : EReal := hiddenNew gateTanh (rowPre m c p) (cAt m c p q) q

/-- The new cell state, as one array. -/
def cellArr (c : Dev nD) : S8192x1024.Idx → EReal := fun i => cellEntry m c ⟨(i 0).val, idx2_lt0 i⟩ ⟨(i 1).val, idx2_lt1 i⟩
/-- The new hidden state, as one array. -/
def hiddenArr (c : Dev nD) : S8192x1024.Idx → EReal := fun i => hiddenEntry m c ⟨(i 0).val, idx2_lt0 i⟩ ⟨(i 1).val, idx2_lt1 i⟩

/-! ## The printed index maps, decided once over the 32 tiles -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem tile_lt (t : Fin cfg0.N) : t.val < 32 := t.isLt

/-! ## The input blocks at a tile are rows of the arrays -/

theorem blk_x (c : Dev nD) (t : Fin cfg0.N) (r : Fin 256) (k : Fin 512) (p : Fin 8192) (hp : p.val = t.val * 256 + r.val) :
    iblk m c 0 t (ix2 r k) = xRow m c p k := by
  obtain ⟨e0, e1, -⟩ := idx_facts t
  show V m c main_arg0 (((cfg0.win 0).blk t).view.emb (ix2 r k)) = _
  rw [V_main_arg0]
  unfold xRow
  refine congrArg _ (funext fun a => Fin.ext ?_)
  match a with
  | ⟨0, _⟩ => show win0_0.index t (0 : Fin 2) * 256 + 1 * r.val = p.val; rw [e0]; omega
  | ⟨1, _⟩ => show win0_0.index t (1 : Fin 2) * 512 + 1 * k.val = k.val; rw [e1]; omega

theorem blk_h (c : Dev nD) (t : Fin cfg0.N) (r : Fin 256) (k : Fin 1024) (p : Fin 8192) (hp : p.val = t.val * 256 + r.val) :
    iblk m c 1 t (ix2 r k) = hRow m c p k := by
  obtain ⟨-, -, e0, e1, -⟩ := idx_facts t
  show V m c main_arg1 (((cfg0.win 1).blk t).view.emb (ix2 r k)) = _
  rw [V_main_arg1]
  unfold hRow
  refine congrArg _ (funext fun a => Fin.ext ?_)
  match a with
  | ⟨0, _⟩ => show win0_1.index t (0 : Fin 2) * 256 + 1 * r.val = p.val; rw [e0]; omega
  | ⟨1, _⟩ => show win0_1.index t (1 : Fin 2) * 1024 + 1 * k.val = k.val; rw [e1]; omega

theorem blk_c (c : Dev nD) (t : Fin cfg0.N) (r : Fin 256) (q : Fin 1024) (p : Fin 8192) (hp : p.val = t.val * 256 + r.val) :
    iblk m c 2 t (ix2 r q) = cAt m c p q := by
  obtain ⟨-, -, -, -, e0, e1, -⟩ := idx_facts t
  show V m c main_arg2 (((cfg0.win 2).blk t).view.emb (ix2 r q)) = _
  rw [V_main_arg2]
  unfold cAt
  refine congrArg _ (funext fun a => Fin.ext ?_)
  match a with
  | ⟨0, _⟩ => show win0_2.index t (0 : Fin 2) * 256 + 1 * r.val = p.val; rw [e0]; omega
  | ⟨1, _⟩ => show win0_2.index t (1 : Fin 2) * 1024 + 1 * q.val = q.val; rw [e1]; omega

/-- The weight block is the whole fused weight matrix at every tile. -/
theorem blk_w (c : Dev nD) (t : Fin cfg0.N) (k : Fin 1536) (j : Fin 4096) :
    iblk m c 3 t (ix2 k j) = stackCols (wxAt m c) (whAt m c) k j := by
  obtain ⟨-, -, -, -, -, -, e0, e1, -⟩ := idx_facts t
  refine Eq.trans ?_ (fused_at m c k j)
  show V m c main_v8 (((cfg0.win 3).blk t).view.emb (ix2 k j)) = V m c main_v8 (ix2 k j)
  refine congrArg _ (funext fun a => Fin.ext ?_)
  match a with
  | ⟨0, _⟩ => show win0_3.index t (0 : Fin 2) * 1536 + 1 * k.val = k.val; rw [e0]; omega
  | ⟨1, _⟩ => show win0_3.index t (1 : Fin 2) * 4096 + 1 * j.val = j.val; rw [e1]; omega

/-- The bias block is the whole bias row at every tile. -/
theorem blk_b (c : Dev nD) (t : Fin cfg0.N) (j : Fin 4096) :
    iblk m c 4 t (ix2 (0 : Fin 1) j) = bxAt m c j + bhAt m c j := by
  obtain ⟨-, -, -, -, -, -, -, -, e0, e1, -⟩ := idx_facts t
  refine Eq.trans ?_ (bias_at m c j)
  show V m c main_v10 (((cfg0.win 4).blk t).view.emb (ix2 (0 : Fin 1) j)) = V m c main_v10 (ix2 (0 : Fin 1) j)
  refine congrArg _ (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 4096 + 1 * j.val = j.val; rw [e1]; omega

/-- Row r of tile t has the pre-activations of row 256·t + r of the arrays. -/
theorem tile_pre (c : Dev nD) (t : Fin cfg0.N) (r : Fin 256) (p : Fin 8192) (hp : p.val = t.val * 256 + r.val) :
    tilePre (iblk m c 0 t) (iblk m c 1 t) (iblk m c 3 t) (iblk m c 4 t) r = rowPre m c p := by
  funext j
  unfold tilePre rowPre preFused
  refine congrArg₂ (· + ·) (Finset.sum_congr rfl fun k _ => congrArg₂ (· * ·) ?_ (blk_w m c t k j)) (blk_b m c t j)
  have hx : (fun k => iblk m c 0 t (ix2 r k)) = xRow m c p := funext fun k => blk_x m c t r k p hp
  have hh : (fun k => iblk m c 1 t (ix2 r k)) = hRow m c p := funext fun k => blk_h m c t r k p hp
  rw [hx, hh]

/-- The cell formula of a tile's row is the new cell state's entry at that row of the arrays. -/
theorem cell_of_tile (c : Dev nD) (t : Fin cfg0.N) (r : Fin 256) (q : Fin 1024) (p : Fin 8192) (hp : p.val = t.val * 256 + r.val) :
    cellNew gateTanh (tilePre (iblk m c 0 t) (iblk m c 1 t) (iblk m c 3 t) (iblk m c 4 t) r) (iblk m c 2 t (ix2 r q)) q = cellEntry m c p q := by
  unfold cellEntry
  rw [tile_pre m c t r p hp, blk_c m c t r q p hp]

/-- The same for the new hidden state. -/
theorem hidden_of_tile (c : Dev nD) (t : Fin cfg0.N) (r : Fin 256) (q : Fin 1024) (p : Fin 8192) (hp : p.val = t.val * 256 + r.val) :
    hiddenNew gateTanh (tilePre (iblk m c 0 t) (iblk m c 1 t) (iblk m c 3 t) (iblk m c 4 t) r) (iblk m c 2 t (ix2 r q)) q = hiddenEntry m c p q := by
  unfold hiddenEntry
  rw [tile_pre m c t r p hp, blk_c m c t r q p hp]

/-! ## What a tile writes back is its rows of the result arrays -/

theorem row_of (t : Fin cfg0.N) (r : Fin 256) : t.val * 256 + r.val < 8192 := by
  have := tile_lt t; have := r.isLt; omega

theorem flushed_cell (c : Dev nD) (t : Fin cfg0.N) :
    (dats m 0 c).flushed 6 t = ((cfg0.win 6).blk t).view.read (Elt Ideal) (cellArr m c) := by
  show (cfg0.win 6).cut (grid0.coords t) ((dats m 0 c).after 6 t) = _
  rw [after_cell]
  unfold cellOut
  rw [View.canon_unit_zero hz]
  simp only [View.ld_unit_zero (S := S256x512) hz, View.ld_unit_zero (S := S256x1024) hz, View.ld_unit_zero (S := S1536x4096) hz, View.ld_unit_zero (S := S1x4096) hz]
  obtain ⟨-, -, -, -, -, -, -, -, -, -, -, -, e0, e1⟩ := idx_facts t
  funext y
  obtain ⟨r, q, rfl⟩ : ∃ (r : Fin 256) (q : Fin 1024), y = ix2 r q := ⟨y 0, y 1, eq_ix2 y⟩
  show k0_pay1 (F := Ideal) (k0_pay4 (iblk m c 0 t) (iblk m c 1 t) (iblk m c 3 t) (iblk m c 4 t)) (k0_pay5 (iblk m c 0 t) (iblk m c 1 t) (iblk m c 3 t) (iblk m c 4 t)) (k0_pay7 (iblk m c 0 t) (iblk m c 1 t) (iblk m c 3 t) (iblk m c 4 t) (iblk m c 2 t)) (ix2 r q)
    = cellArr m c (((cfg0.win 6).blk t).view.emb (ix2 r q))
  refine (cell_at (iblk m c 0 t) (iblk m c 1 t) (iblk m c 2 t) (iblk m c 3 t) (iblk m c 4 t) r q).trans ?_
  have h0 : ((((cfg0.win 6).blk t).view.emb (ix2 r q)) 0).val = t.val * 256 + r.val := by
    show win0_6.index t (0 : Fin 2) * 256 + 1 * r.val = _; rw [e0]; omega
  have h1 : ((((cfg0.win 6).blk t).view.emb (ix2 r q)) 1).val = q.val := by
    show win0_6.index t (1 : Fin 2) * 1024 + 1 * q.val = _; rw [e1]; omega
  unfold cellArr
  have hq : ∀ hlt, (⟨((((cfg0.win 6).blk t).view.emb (ix2 r q)) 1).val, hlt⟩ : Fin 1024) = q := fun _ => Fin.ext h1
  rw [hq]
  refine cell_of_tile m c t r q _ ?_
  exact h0

theorem flushed_hidden (c : Dev nD) (t : Fin cfg0.N) :
    (dats m 0 c).flushed 5 t = ((cfg0.win 5).blk t).view.read (Elt Ideal) (hiddenArr m c) := by
  show (cfg0.win 5).cut (grid0.coords t) ((dats m 0 c).after 5 t) = _
  rw [after_hidden]
  unfold hiddenOut
  rw [View.canon_unit_zero hz]
  simp only [View.ld_unit_zero (S := S256x512) hz, View.ld_unit_zero (S := S256x1024) hz, View.ld_unit_zero (S := S1536x4096) hz, View.ld_unit_zero (S := S1x4096) hz]
  obtain ⟨-, -, -, -, -, -, -, -, -, -, e0, e1, -⟩ := idx_facts t
  funext y
  obtain ⟨r, q, rfl⟩ : ∃ (r : Fin 256) (q : Fin 1024), y = ix2 r q := ⟨y 0, y 1, eq_ix2 y⟩
  show k0_pay2 (F := Ideal) (k0_pay4 (iblk m c 0 t) (iblk m c 1 t) (iblk m c 3 t) (iblk m c 4 t)) (k0_pay5 (iblk m c 0 t) (iblk m c 1 t) (iblk m c 3 t) (iblk m c 4 t)) (k0_pay6 (iblk m c 0 t) (iblk m c 1 t) (iblk m c 3 t) (iblk m c 4 t)) (k0_pay7 (iblk m c 0 t) (iblk m c 1 t) (iblk m c 3 t) (iblk m c 4 t) (iblk m c 2 t)) (ix2 r q)
    = hiddenArr m c (((cfg0.win 5).blk t).view.emb (ix2 r q))
  refine (hidden_at (iblk m c 0 t) (iblk m c 1 t) (iblk m c 2 t) (iblk m c 3 t) (iblk m c 4 t) r q).trans ?_
  have h0 : ((((cfg0.win 5).blk t).view.emb (ix2 r q)) 0).val = t.val * 256 + r.val := by
    show win0_5.index t (0 : Fin 2) * 256 + 1 * r.val = _; rw [e0]; omega
  have h1 : ((((cfg0.win 5).blk t).view.emb (ix2 r q)) 1).val = q.val := by
    show win0_5.index t (1 : Fin 2) * 1024 + 1 * q.val = _; rw [e1]; omega
  unfold hiddenArr
  have hq : ∀ hlt, (⟨((((cfg0.win 5).blk t).view.emb (ix2 r q)) 1).val, hlt⟩ : Fin 1024) = q := fun _ => Fin.ext h1
  rw [hq]
  refine hidden_of_tile m c t r q _ ?_
  exact h0

/-! ## The tiles cover the result arrays -/

theorem mem_tile6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v11_1).slice (win0_6.rect t)).set ↔ _
  rw [View.set_slice_whole, Rect.mem_set_unit]
  exact Iff.rfl

theorem mem_tile5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v11_0).slice (win0_5.rect t)).set ↔ _
  rw [View.set_slice_whole, Rect.mem_set_unit]
  exact Iff.rfl

/-- Every tile number below 32 is a grid point. -/
theorem tile_onto : ∀ q0 : Fin 32, ∃ t : Fin cfg0.N, t.val = q0.val :=
  (by decide +kernel : ∀ q0 : Fin 32, ∃ t : Fin grid0.N, t.val = q0.val)

theorem cover6 (i : S8192x1024.Idx) : ∃ t : Fin cfg0.N, (cfg0.win 6).flush t = true ∧ i ∈ ((cfg0.win 6).blk t).view.set := by
  have hi0 : (i 0).val < 8192 := idx2_lt0 i
  have hi1 : (i 1).val < 1024 := idx2_lt1 i
  obtain ⟨t, ht⟩ := tile_onto ⟨(i 0).val / 256, by omega⟩
  have ht' : t.val = (i 0).val / 256 := ht
  obtain ⟨-, -, -, -, -, -, -, -, -, -, -, -, e0, e1⟩ := idx_facts t
  refine ⟨t, flush0_6 t, ?_⟩
  rw [mem_tile6]
  intro a
  match a with
  | ⟨0, _⟩ => show win0_6.index t (0 : Fin 2) * 256 ≤ (i 0).val ∧ (i 0).val < win0_6.index t (0 : Fin 2) * 256 + 256; rw [e0]; omega
  | ⟨1, _⟩ => show win0_6.index t (1 : Fin 2) * 1024 ≤ (i 1).val ∧ (i 1).val < win0_6.index t (1 : Fin 2) * 1024 + 1024; rw [e1]; omega

theorem cover5 (i : S8192x1024.Idx) : ∃ t : Fin cfg0.N, (cfg0.win 5).flush t = true ∧ i ∈ ((cfg0.win 5).blk t).view.set := by
  have hi0 : (i 0).val < 8192 := idx2_lt0 i
  have hi1 : (i 1).val < 1024 := idx2_lt1 i
  obtain ⟨t, ht⟩ := tile_onto ⟨(i 0).val / 256, by omega⟩
  have ht' : t.val = (i 0).val / 256 := ht
  obtain ⟨-, -, -, -, -, -, -, -, -, -, e0, e1, -⟩ := idx_facts t
  refine ⟨t, flush0_5 t, ?_⟩
  rw [mem_tile5]
  intro a
  match a with
  | ⟨0, _⟩ => show win0_5.index t (0 : Fin 2) * 256 ≤ (i 0).val ∧ (i 0).val < win0_5.index t (0 : Fin 2) * 256 + 256; rw [e0]; omega
  | ⟨1, _⟩ => show win0_5.index t (1 : Fin 2) * 1024 ≤ (i 1).val ∧ (i 1).val < win0_5.index t (1 : Fin 2) * 1024 + 1024; rw [e1]; omega

/-! ## The result arrays after the run -/

theorem final_cell (c : Dev nD) : (dats m 0 c).arrAt 6 cfg0.N = cellArr m c :=
  (dats m 0 c).arrAt_eq_of_cover 6 (cellArr m c) (fun t _ => flushed_cell m c t) cover6

theorem final_hidden (c : Dev nD) : (dats m 0 c).arrAt 5 cfg0.N = hiddenArr m c :=
  (dats m 0 c).arrAt_eq_of_cover 5 (hiddenArr m c) (fun t _ => flushed_hidden m c t) cover5

/-- The program's run with both results named and the arguments unchanged. -/
theorem run : θ_run defs (onTc (τ := τ) (main (F := Ideal))) ⟨m, fun _ => 0, ρ⟩ fun r => ∀ c : Dev nD,
      r.2.mem ((c.tc : Thread nD τ).loc main_v11_0) = hiddenArr m c
      ∧ r.2.mem ((c.tc : Thread nD τ).loc main_v11_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 5).trans (final_hidden m c), ((h c).1 6).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.CellArrays

end
-- ==== Proof.CellReference.lean ====
/-
  The reference program's two results, entry by entry on the extended reals.

  The reference stacks the four gates' weights and biases, forms the pre-activation
  ((x·Wxᵀ + bx) + h·Whᵀ) + bh, cuts it into the four gate stretches, applies the logistic gate 1 / (1 + e^(-v)) to
  three of them and tanh to the fourth, and combines: new cell state f·c + i·tanh(g), new hidden state o·(new cell
  state).  Read at (p, q), its results are the cell formulas of row p's two-product pre-activations with the gate
  spelt through the exponential; the four stackings are kept as they are.
-/
import proofs.«150322_j15693810500357_2_alg».proof.Proof.Gen.ReferenceIdeal.Read
import proofs.«150322_j15693810500357_2_alg».proof.Proof.CellSpec
import Idealize.ShloMosaic.Lib.Pipeline.Value
import Idealize.ShloMosaic.Lib.ValueIdx

set_option maxRecDepth 16384

noncomputable section

namespace Cert.ReferenceIdeal.CellRef

open Cert.ReferenceIdeal Cert.ReferenceIdeal.Read Cert.CellSpec
open Idealize.ShloMosaic Idealize.ShloMosaic.ValueIdx
open scoped BigOperators

variable (x0 : (⟨S8192x512, .f32⟩ : BufTy).Contents (Elt Ideal)) (x1 x2 : (⟨S8192x1024, .f32⟩ : BufTy).Contents (Elt Ideal))
  (x3 : (⟨S1024x512, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x512, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal))
  (x11 : (⟨S1024x512, .f32⟩ : BufTy).Contents (Elt Ideal)) (x12 : (⟨S1024, .f32⟩ : BufTy).Contents (Elt Ideal))
  (x13 : (⟨S1024x1024, .f32⟩ : BufTy).Contents (Elt Ideal)) (x14 : (⟨S1024, .f32⟩ : BufTy).Contents (Elt Ideal))
  (x15 : (⟨S1024x512, .f32⟩ : BufTy).Contents (Elt Ideal)) (x16 : (⟨S1024, .f32⟩ : BufTy).Contents (Elt Ideal))
  (x17 : (⟨S1024x1024, .f32⟩ : BufTy).Contents (Elt Ideal)) (x18 : (⟨S1024, .f32⟩ : BufTy).Contents (Elt Ideal))

/-- Row p's two-product pre-activations, over the reference's four stackings. -/
def rowPre (p : Fin 8192) : Fin 4096 → EReal :=
  preTwo (fun k => x0 (ix2 p k)) (fun k => x1 (ix2 p k))
    (fun j k => val_main_v0 (F := Ideal) x3 x7 x11 x15 (ix2 j k)) (fun j => val_main_v1 (F := Ideal) x4 x8 x12 x16 (ix1 j))
    (fun j k => val_main_v2 (F := Ideal) x5 x9 x13 x17 (ix2 j k)) (fun j => val_main_v3 (F := Ideal) x6 x10 x14 x18 (ix1 j))

/-- Entry (p, q) of the reference's new cell state. -/
def cellEntry (p : Fin 8192) (q : Fin 1024) : EReal := cellNew gateExp (rowPre x0 x1 x3 x4 x5 x6 x7 x8 x9 x10 x11 x12 x13 x14 x15 x16 x17 x18 p) (x2 (ix2 p q)) q
/-- Entry (p, q) of the reference's new hidden state. -/
def hiddenEntry (p : Fin 8192) (q : Fin 1024) : EReal := hiddenNew gateExp (rowPre x0 x1 x3 x4 x5 x6 x7 x8 x9 x10 x11 x12 x13 x14 x15 x16 x17 x18 p) (x2 (ix2 p q)) q

/-- The pre-activation stage at (p, j). -/
theorem pre_at (p : Fin 8192) (j : Fin 4096) : val_main_v14 (F := Ideal) x0 x1 x3 x4 x5 x6 x7 x8 x9 x10 x11 x12 x13 x14 x15 x16 x17 x18 (ix2 p j) = rowPre x0 x1 x3 x4 x5 x6 x7 x8 x9 x10 x11 x12 x13 x14 x15 x16 x17 x18 p j := by
  rw [val_main_v14_apply, val_main_v11_apply, val_main_v8_apply, val_main_v5_apply, val_main_v10_apply, val_main_v7_apply,
    val_main_v6_apply, val_main_v13_apply, val_main_v12_apply]
  simp only [val_main_v4_apply, val_main_v9_apply]
  have e1 : ∀ k, lidx_main_v5 (ix2 p j) k = ix2 p k := fun k => funext fun a => Fin.ext (by match a with | ⟨0, _⟩ => rfl | ⟨1, _⟩ => rfl)
  have e2 : ∀ k, idx_main_v4 (ridx_main_v5 (ix2 p j) k) = ix2 j k := fun k => funext fun a => Fin.ext (by match a with | ⟨0, _⟩ => rfl | ⟨1, _⟩ => rfl)
  have e3 : ∀ k, lidx_main_v10 (ix2 p j) k = ix2 p k := fun k => funext fun a => Fin.ext (by match a with | ⟨0, _⟩ => rfl | ⟨1, _⟩ => rfl)
  have e4 : ∀ k, idx_main_v9 (ridx_main_v10 (ix2 p j) k) = ix2 j k := fun k => funext fun a => Fin.ext (by match a with | ⟨0, _⟩ => rfl | ⟨1, _⟩ => rfl)
  have e5 : idx_main_v6 (idx_main_v7 (ix2 p j)) = ix1 j := funext fun a => Fin.ext (by match a with | ⟨0, _⟩ => rfl)
  have e6 : idx_main_v12 (idx_main_v13 (ix2 p j)) = ix1 j := funext fun a => Fin.ext (by match a with | ⟨0, _⟩ => rfl)
  simp only [e1, e2, e3, e4, e5, e6]
  rfl

theorem sliceI (p : Fin 8192) (q : Fin 1024) : idx_main_v15 (ix2 p q) = ix2 p (colI q) :=
  funext fun a => Fin.ext (by match a with | ⟨0, _⟩ => rfl | ⟨1, _⟩ => show q.val = 0 + q.val; omega)
theorem sliceF (p : Fin 8192) (q : Fin 1024) : idx_main_v16 (ix2 p q) = ix2 p (colF q) :=
  funext fun a => Fin.ext (by match a with | ⟨0, _⟩ => rfl | ⟨1, _⟩ => rfl)
theorem sliceO (p : Fin 8192) (q : Fin 1024) : idx_main_v17 (ix2 p q) = ix2 p (colO q) :=
  funext fun a => Fin.ext (by match a with | ⟨0, _⟩ => rfl | ⟨1, _⟩ => rfl)
theorem sliceG (p : Fin 8192) (q : Fin 1024) : idx_main_v18 (ix2 p q) = ix2 p (colG q) :=
  funext fun a => Fin.ext (by match a with | ⟨0, _⟩ => rfl | ⟨1, _⟩ => rfl)

/-- The input gate stage at (p, q). -/
theorem igate_at (p : Fin 8192) (q : Fin 1024) : val_main_v24 (F := Ideal) x0 x1 x3 x4 x5 x6 x7 x8 x9 x10 x11 x12 x13 x14 x15 x16 x17 x18 (ix2 p q) = gateExp (rowPre x0 x1 x3 x4 x5 x6 x7 x8 x9 x10 x11 x12 x13 x14 x15 x16 x17 x18 p (colI q)) := by
  rw [val_main_v24_apply, val_main_v23_apply, val_main_cst_0_apply, val_main_v22_apply, val_main_v21_apply, val_main_cst_apply,
    val_main_v20_apply, val_main_v19_apply, val_main_v15_apply, sliceI, pre_at]
  rfl

/-- The forget gate stage at (p, q). -/
theorem fgate_at (p : Fin 8192) (q : Fin 1024) : val_main_v30 (F := Ideal) x0 x1 x3 x4 x5 x6 x7 x8 x9 x10 x11 x12 x13 x14 x15 x16 x17 x18 (ix2 p q) = gateExp (rowPre x0 x1 x3 x4 x5 x6 x7 x8 x9 x10 x11 x12 x13 x14 x15 x16 x17 x18 p (colF q)) := by
  rw [val_main_v30_apply, val_main_v29_apply, val_main_cst_2_apply, val_main_v28_apply, val_main_v27_apply, val_main_cst_1_apply,
    val_main_v26_apply, val_main_v25_apply, val_main_v16_apply, sliceF, pre_at]
  rfl

/-- The output gate stage at (p, q). -/
theorem ogate_at (p : Fin 8192) (q : Fin 1024) : val_main_v36 (F := Ideal) x0 x1 x3 x4 x5 x6 x7 x8 x9 x10 x11 x12 x13 x14 x15 x16 x17 x18 (ix2 p q) = gateExp (rowPre x0 x1 x3 x4 x5 x6 x7 x8 x9 x10 x11 x12 x13 x14 x15 x16 x17 x18 p (colO q)) := by
  rw [val_main_v36_apply, val_main_v35_apply, val_main_cst_4_apply, val_main_v34_apply, val_main_v33_apply, val_main_cst_3_apply,
    val_main_v32_apply, val_main_v31_apply, val_main_v17_apply, sliceO, pre_at]
  rfl

/-- The new cell state stage at (p, q). -/
theorem cell_at (p : Fin 8192) (q : Fin 1024) : val_main_v40 (F := Ideal) x0 x1 x2 x3 x4 x5 x6 x7 x8 x9 x10 x11 x12 x13 x14 x15 x16 x17 x18 (ix2 p q) = cellEntry x0 x1 x2 x3 x4 x5 x6 x7 x8 x9 x10 x11 x12 x13 x14 x15 x16 x17 x18 p q := by
  rw [val_main_v40_apply, val_main_v37_apply, val_main_v39_apply, val_main_v38_apply, val_main_v18_apply, sliceG, pre_at,
    fgate_at, igate_at]
  rfl

/-- The new hidden state stage at (p, q). -/
theorem hidden_at (p : Fin 8192) (q : Fin 1024) : val_main_v41 (F := Ideal) x0 x1 x2 x3 x4 x5 x6 x7 x8 x9 x10 x11 x12 x13 x14 x15 x16 x17 x18 (ix2 p q) = hiddenEntry x0 x1 x2 x3 x4 x5 x6 x7 x8 x9 x10 x11 x12 x13 x14 x15 x16 x17 x18 p q := by
  rw [val_main_v41_apply, ogate_at, cell_at]
  rfl

/-- The reference's new cell state as one array. -/
theorem cell_eq : val_main_v40 (F := Ideal) x0 x1 x2 x3 x4 x5 x6 x7 x8 x9 x10 x11 x12 x13 x14 x15 x16 x17 x18
    = fun i : S8192x1024.Idx => cellEntry x0 x1 x2 x3 x4 x5 x6 x7 x8 x9 x10 x11 x12 x13 x14 x15 x16 x17 x18 ⟨(i 0).val, idx2_lt0 i⟩ ⟨(i 1).val, idx2_lt1 i⟩ := by
  funext i
  obtain ⟨p, q, rfl⟩ : ∃ (p : Fin 8192) (q : Fin 1024), i = ix2 p q := ⟨i 0, i 1, eq_ix2 i⟩
  exact cell_at x0 x1 x2 x3 x4 x5 x6 x7 x8 x9 x10 x11 x12 x13 x14 x15 x16 x17 x18 p q

/-- The reference's new hidden state as one array. -/
theorem hidden_eq : val_main_v41 (F := Ideal) x0 x1 x2 x3 x4 x5 x6 x7 x8 x9 x10 x11 x12 x13 x14 x15 x16 x17 x18
    = fun i : S8192x1024.Idx => hiddenEntry x0 x1 x2 x3 x4 x5 x6 x7 x8 x9 x10 x11 x12 x13 x14 x15 x16 x17 x18 ⟨(i 0).val, idx2_lt0 i⟩ ⟨(i 1).val, idx2_lt1 i⟩ := by
  funext i
  obtain ⟨p, q, rfl⟩ : ∃ (p : Fin 8192) (q : Fin 1024), i = ix2 p q := ⟨i 0, i 1, eq_ix2 i⟩
  exact hidden_at x0 x1 x2 x3 x4 x5 x6 x7 x8 x9 x10 x11 x12 x13 x14 x15 x16 x17 x18 p q

end Cert.ReferenceIdeal.CellRef

end
-- ==== Proof.CellBridge.lean ====
/-
  The two programs' results are the same arrays.

  At launch contents m of the kernel's arguments, entry (p, q) of the reference's new cell state is the cell formula
  of row p's two-product pre-activations with the exponential gate, and entry (p, q) of the kernel's is the cell
  formula of row p's fused pre-activations with the tanh gate, over the same rows of x, h and c and the same four
  stackings of the weights and biases.  The two pre-activations are one function (a sum over 1536 = 512 + 1024 terms
  split in two, the biases regrouped) and the two gates are one function on the extended reals, so the entries are
  equal; the same for the new hidden state.
-/
import proofs.«150322_j15693810500357_2_alg».proof.Proof.CellArrays
import proofs.«150322_j15693810500357_2_alg».proof.Proof.CellReference

set_option maxRecDepth 16384

noncomputable section

namespace Cert.Proof.CellBridge

open Idealize.ShloMosaic Idealize.ShloMosaic.TcCoe Idealize.SL.Sem

variable (m : (ℓ : Loc Cert.KernelIdeal.nD Cert.KernelIdeal.τ Cert.KernelIdeal.sig) → Buf (Elt Ideal) ℓ)

/-- The reference's new cell state, at the kernel's launch arrays, is the kernel's. -/
theorem cell_same (c : Dev Cert.KernelIdeal.nD) :
    Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      = Cert.KernelIdeal.CellArrays.cellArr m c := by
  rw [Cert.ReferenceIdeal.CellRef.cell_eq]
  funext i
  exact (Cert.CellSpec.cell_agree _ _ _ _ _ _ _ _).symm

/-- The reference's new hidden state, at the kernel's launch arrays, is the kernel's. -/
theorem hidden_same (c : Dev Cert.KernelIdeal.nD) :
    Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      = Cert.KernelIdeal.CellArrays.hiddenArr m c := by
  rw [Cert.ReferenceIdeal.CellRef.hidden_eq]
  funext i
  exact (Cert.CellSpec.hidden_agree _ _ _ _ _ _ _ _).symm

end Cert.Proof.CellBridge

end
-- ==== Proof.lean ====
/-
  The certificate of the LSTM-cell kernel against its reference.

  The kernel computes all four gates of a batch tile by ONE product of the joined row [x | h] with the stacked,
  transposed weights, adds the two bias vectors folded into one, and spells the logistic gate as ½·tanh(½·v) + ½; the
  reference computes two products, adds the two biases one after the other, and spells the gate 1 / (1 + e^(-v)).  On
  the extended reals these are the same function of the arguments at every entry — a sum over 1536 = 512 + 1024 terms
  split in two, + commutative and associative, and the two gate spellings equal at every real and at both infinities —
  so no finiteness of the inputs is used.

  The frames: each kernel program runs its eleven host operations and then 32 batch tiles, each tile loading its rows
  and storing its rows of the two results, and leaves its nineteen arguments as launched; the reference is a
  straight-line host program.  The idealized kernel is the kernel's own text read on the extended reals, so there is
  nothing to preserve.
-/
import proofs.«150322_j15693810500357_2_alg».proof.Defs
import proofs.«150322_j15693810500357_2_alg».proof.Proof.Gen.Kernel
import proofs.«150322_j15693810500357_2_alg».proof.Proof.Gen.KernelIdeal
import proofs.«150322_j15693810500357_2_alg».proof.Proof.Gen.ReferenceIdeal
import proofs.«150322_j15693810500357_2_alg».proof.Proof.Gen.Pre_finite_inputs
import proofs.«150322_j15693810500357_2_alg».proof.Proof.Gen.ReferenceIdeal.Run
import proofs.«150322_j15693810500357_2_alg».proof.Proof.Gen.ReferenceIdeal.Read
import proofs.«150322_j15693810500357_2_alg».proof.Proof.CellFrameBits
import proofs.«150322_j15693810500357_2_alg».proof.Proof.CellFrameIdeal
import proofs.«150322_j15693810500357_2_alg».proof.Proof.CellArrays
import proofs.«150322_j15693810500357_2_alg».proof.Proof.CellBridge
import Idealize.ShloMosaic.Adequacy
import Idealize.ShloMosaic.Init

set_option maxRecDepth 16384

noncomputable section

namespace Cert.Proof

open Idealize.ShloMosaic Idealize.SL.Sem

/-- The word-level kernel runs to the end and leaves its arguments as launched. -/
theorem frame_kernel : Cert.frame_Kernel := fun m ρ _ => Cert.Kernel.Cell.frame m ρ

/-- So does the kernel read on the extended reals. -/
theorem frame_kernelIdeal : Cert.frame_KernelIdeal := fun m ρ _ => Cert.KernelIdeal.Cell.frame m ρ

/-- The reference's run, with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From launch contents agreeing on the arguments both programs end with the same two result arrays. -/
theorem algebraic : Cert.algebraic_KernelIdeal_ReferenceIdeal := by
  intro m ρ m' ρ' _ hagree
  refine ⟨fun c => Cert.KernelIdeal.CellArrays.hiddenArr m c, fun c => Cert.KernelIdeal.CellArrays.cellArr m c,
    Cert.KernelIdeal.CellArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v41_eq, a0, a1, a2, a3, a4, a5, a6, a7, a8, a9, a10, a11, a12, a13, a14, a15, a16, a17, a18]
    exact CellBridge.hidden_same m c
  · obtain ⟨a0, a1, a2, a3, a4, a5, a6, a7, a8, a9, a10, a11, a12, a13, a14, a15, a16, a17, a18⟩ := hagree c
    rw [Cert.ReferenceIdeal.Read.val_main_v40_eq, a0, a1, a2, a3, a4, a5, a6, a7, a8, a9, a10, a11, a12, a13, a14, a15, a16, a17, a18]
    exact CellBridge.cell_same m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
